-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S256 : Shape := ⟨1, ![256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S262144x256 .f32) (main_arg1 : IVec S262144 32) (main_arg2 : FVec F S256 .f32) (main_arg3 : FVec F S256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S262144x256 : Shape := ⟨2, ![262144, 256]⟩
abbrev S262144 : Shape := ⟨1, ![262144]⟩
abbrev S256 : Shape := ⟨1, ![256]⟩
abbrev S262144x2 : Shape := ⟨2, ![262144, 2]⟩
abbrev S8192x256 : Shape := ⟨2, ![8192, 256]⟩
abbrev S8192x2 : Shape := ⟨2, ![8192, 2]⟩
abbrev S8192 : Shape := ⟨1, ![8192]⟩
abbrev S8192x1 : Shape := ⟨2, ![8192, 1]⟩
abbrev S262144x1 : Shape := ⟨2, ![262144, 1]⟩
abbrev S_ : Shape := ⟨0, ![]⟩
abbrev S262144x3 : Shape := ⟨2, ![262144, 3]⟩
abbrev S1024x3 : Shape := ⟨2, ![1024, 3]⟩
abbrev S1024x1 : Shape := ⟨2, ![1024, 1]⟩
abbrev S1024 : Shape := ⟨1, ![1024]⟩
abbrev S1024x2 : Shape := ⟨2, ![1024, 2]⟩
abbrev S1x256 : Shape := ⟨2, ![1, 256]⟩

abbrev nBuf : Space → Nat
  | .hbm => 61
  | .vmem => 12
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S256, .f32⟩
  | .hbm, ⟨3, _⟩ => ⟨S256, .f32⟩
  | .hbm, ⟨4, _⟩ => ⟨S262144x2, .f32⟩
  | .hbm, ⟨5, _⟩ => ⟨S262144x1, .f32⟩
  | .hbm, ⟨6, _⟩ => ⟨S262144, .f32⟩
  | .hbm, ⟨7, _⟩ => ⟨S262144x1, .f32⟩
  | .hbm, ⟨8, _⟩ => ⟨S262144, .f32⟩
  | .hbm, ⟨9, _⟩ => ⟨S_, .f32⟩
  | .hbm, ⟨10, _⟩ => ⟨S262144, .f32⟩
  | .hbm, ⟨11, _⟩ => ⟨S262144x1, .f32⟩
  | .hbm, ⟨12, _⟩ => ⟨S262144x1, .f32⟩
  | .hbm, ⟨13, _⟩ => ⟨S262144x1, .f32⟩
  | .hbm, ⟨14, _⟩ => ⟨S262144x3, .f32⟩
  | .hbm, ⟨15, _⟩ => ⟨S_, .f32⟩
  | .hbm, ⟨16, _⟩ => ⟨S1024x3, .f32⟩
  | .hbm, ⟨17, _⟩ => ⟨S262144x1, .i32⟩
  | .hbm, ⟨18, _⟩ => ⟨S1024x3, .f32⟩
  | .hbm, ⟨19, _⟩ => ⟨S1024x1, .f32⟩
  | .hbm, ⟨20, _⟩ => ⟨S1024, .f32⟩
  | .hbm, ⟨21, _⟩ => ⟨S1024x1, .f32⟩
  | .hbm, ⟨22, _⟩ => ⟨S1024, .f32⟩
  | .hbm, ⟨23, _⟩ => ⟨S1024x1, .f32⟩
  | .hbm, ⟨24, _⟩ => ⟨S1024, .f32⟩
  | .hbm, ⟨25, _⟩ => ⟨S_, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S1024, .f32⟩
  | .hbm, ⟨40, _⟩ => ⟨S_, .f32⟩
  | .hbm, ⟨41, _⟩ => ⟨S1024, .f32⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S1024x1, .f32⟩
  | .hbm, ⟨49, _⟩ => ⟨S1024x1, .f32⟩
  | .hbm, ⟨50, _⟩ => ⟨S1024x2, .f32⟩
  | .hbm, ⟨51, _⟩ => ⟨S_, .i32⟩
  | .hbm, ⟨52, _⟩ => ⟨S262144, .i32⟩
  | .hbm, ⟨53, _⟩ => ⟨S262144, .i1⟩
  | .hbm, ⟨54, _⟩ => ⟨S_, .i32⟩
  | .hbm, ⟨55, _⟩ => ⟨S262144, .i32⟩
  | .hbm, ⟨56, _⟩ => ⟨S262144, .i32⟩
  | .hbm, ⟨57, _⟩ => ⟨S262144, .i32⟩
  | .hbm, ⟨58, _⟩ => ⟨S262144x1, .i32⟩
  | .hbm, ⟨59, _⟩ => ⟨S262144x2, .f32⟩
  | .hbm, ⟨60, _⟩ => ⟨S262144x256, .f32⟩
  | .local _ .vmem, ⟨0, _⟩ => ⟨S8192x256, .f32⟩
  | .local _ .vmem, ⟨1, _⟩ => ⟨S8192x256, .f32⟩
  | .local _ .vmem, ⟨2, _⟩ => ⟨S8192x2, .f32⟩
  | .local _ .vmem, ⟨3, _⟩ => ⟨S8192x2, .f32⟩
  | .local _ .vmem, ⟨4, _⟩ => ⟨S8192x256, .f32⟩
  | .local _ .vmem, ⟨5, _⟩ => ⟨S8192x256, .f32⟩
  | .local _ .vmem, ⟨6, _⟩ => ⟨S8192x2, .f32⟩
  | .local _ .vmem, ⟨7, _⟩ => ⟨S8192x2, .f32⟩
  | .local _ .vmem, ⟨8, _⟩ => ⟨S256, .f32⟩
  | .local _ .vmem, ⟨9, _⟩ => ⟨S256, .f32⟩
  | .local _ .vmem, ⟨10, _⟩ => ⟨S8192x256, .f32⟩
  | .local _ .vmem, ⟨11, _⟩ => ⟨S8192x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8192x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S8192x256_S8192x256_0_0 : ∀ a, (![0, 0] : Fin 2 → Nat) a + S8192x256.size a ≤ S8192x256.size a
  h_S8192x256 : 0 < S8192x256.numel
  reduces_S8192x256_S8192 : S8192x256.Reduces [1] S8192
  shapeCasts_S8192_S8192x1 : S8192.ShapeCasts S8192x1
  concatenates_S8192x1_S8192x1_S8192x2_d1 : Shape.Concatenates [S8192x1, S8192x1] S8192x2 1
  inb_S8192x2_S8192x2_0_0 : ∀ a, (![0, 0] : Fin 2 → Nat) a + S8192x2.size a ≤ S8192x2.size a
  h_S8192x2 : 0 < S8192x2.numel
  slices_S262144x2_S262144x1_0_0 : S262144x2.Slices ![0, 0] S262144x1
  shapeCasts_S262144x1_S262144 : S262144x1.ShapeCasts S262144
  slices_S262144x2_S262144x1_0_1 : S262144x2.Slices ![0, 1] S262144x1
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x1_S262144x3_d1 : Shape.Concatenates [S262144x1, S262144x1, S262144x1] S262144x3 1
  bcast_S_S1024x3 : S_.BroadcastsInDim S1024x3 (![] : Fin 0 → Fin S1024x3.rank)
  slices_S1024x3_S1024x1_0_0 : S1024x3.Slices ![0, 0] S1024x1
  shapeCasts_S1024x1_S1024 : S1024x1.ShapeCasts S1024
  slices_S1024x3_S1024x1_0_1 : S1024x3.Slices ![0, 1] S1024x1
  slices_S1024x3_S1024x1_0_2 : S1024x3.Slices ![0, 2] S1024x1
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  shapeCasts_S8192x2_S8192x2 : S8192x2.ShapeCasts S8192x2
  slices_S8192x2_o0_0_S8192x1 : S8192x2.Slices ![0, 0] S8192x1
  slices_S8192x2_o0_1_S8192x1 : S8192x2.Slices ![0, 1] S8192x1
  inb_S256_S256_0 : ∀ a, (![0] : Fin 1 → Nat) a + S256.size a ≤ S256.size a
  h_S256 : 0 < S256.numel
  broadcasts_S8192x1_S8192x256 : S8192x1.Broadcasts S8192x256
  shapeCasts_S256_S1x256 : S256.ShapeCasts S1x256
  broadcasts_S1x256_S8192x256 : S1x256.Broadcasts S8192x256
  scatter_S1024x3_S262144x1_S262144x3_1_0_0_1_wf : ScatterDims.WF S1024x3 S262144x1 S262144x3 [1] [0] [0] 1
  gather_S1024x2_S262144x1_S262144x2_1_0_n_n_0_1_12_wf : GatherDims.WF S1024x2 S262144x1 S262144x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S262144x256.size a
  hwx0_0 : ∀ i : grid0.Coords, EltTy.bits .f32 = 32 ∨ (Rect.block (s := S262144x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x2.size a ≤ S262144x2.size a
  hwx0_1 : ∀ i : grid0.Coords, EltTy.bits .f32 = 32 ∨ (Rect.block (s := S262144x2) S8192x2.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x256.size a ≤ S262144x256.size a
  hwx1_0 : ∀ i : grid1.Coords, EltTy.bits .f32 = 32 ∨ (Rect.block (s := S262144x256) S8192x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x2.size a ≤ S262144x2.size a
  hwx1_1 : ∀ i : grid1.Coords, EltTy.bits .f32 = 32 ∨ (Rect.block (s := S262144x2) S8192x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8192x256.size a ≤ S262144x256.size a
  hwx1_4 : ∀ i : grid1.Coords, EltTy.bits .f32 = 32 ∨ (Rect.block (s := S262144x256) S8192x256.size (cc1_transform_4 i) (hinb1_4 i)).WholeWords (EltTy.packing .f32)

variable [Facts₀]

def scatter_S1024x3_S262144x1_S262144x3_1_0_0_1 : ScatterDims S1024x3 S262144x1 S262144x3 where
  updateWindowDims := [1]
  insertedWindowDims := [0]
  scatterDimsToOperandDims := [0]
  indexVectorDim := 1
  wf := scatter_S1024x3_S262144x1_S262144x3_1_0_0_1_wf
def gather_S1024x2_S262144x1_S262144x2_1_0_n_n_0_1_12 : GatherDims S1024x2 S262144x1 S262144x2 where
  offsetDims := [1]
  collapsedSliceDims := [0]
  operandBatchingDims := []
  startIndicesBatchingDims := []
  startIndexMap := [0]
  indexVectorDim := 1
  sliceSizes := ![1, 2]
  wf := gather_S1024x2_S262144x1_S262144x2_1_0_n_n_0_1_12_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x2.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S8192x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S8192x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S8192x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S262144x256 : Shape := ⟨2, ![262144, 256]⟩
abbrev S262144 : Shape := ⟨1, ![262144]⟩
abbrev S256 : Shape := ⟨1, ![256]⟩
abbrev S_ : Shape := ⟨0, ![]⟩
abbrev S1024 : Shape := ⟨1, ![1024]⟩
abbrev S262144x1 : Shape := ⟨2, ![262144, 1]⟩
abbrev S1024x1 : Shape := ⟨2, ![1024, 1]⟩
abbrev S1024x256 : Shape := ⟨2, ![1024, 256]⟩
abbrev S1x256 : Shape := ⟨2, ![1, 256]⟩

abbrev nBuf : Space → Nat
  | .hbm => 67
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S256, .f32⟩
  | .hbm, ⟨3, _⟩ => ⟨S256, .f32⟩
  | .hbm, ⟨4, _⟩ => ⟨S_, .f32⟩
  | .hbm, ⟨5, _⟩ => ⟨S262144, .f32⟩
  | .hbm, ⟨6, _⟩ => ⟨S_, .f32⟩
  | .hbm, ⟨7, _⟩ => ⟨S1024, .f32⟩
  | .hbm, ⟨8, _⟩ => ⟨S262144x1, .i32⟩
  | .hbm, ⟨9, _⟩ => ⟨S1024, .f32⟩
  | .hbm, ⟨10, _⟩ => ⟨S_, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024x1, .f32⟩
  | .hbm, ⟨15, _⟩ => ⟨S_, .f32⟩
  | .hbm, ⟨16, _⟩ => ⟨S1024x1, .f32⟩
  | .hbm, ⟨17, _⟩ => ⟨S1024x1, .f32⟩
  | .hbm, ⟨18, _⟩ => ⟨S_, .f32⟩
  | .hbm, ⟨19, _⟩ => ⟨S1024x256, .f32⟩
  | .hbm, ⟨20, _⟩ => ⟨S262144x1, .i32⟩
  | .hbm, ⟨21, _⟩ => ⟨S1024x256, .f32⟩
  | .hbm, ⟨22, _⟩ => ⟨S_, .f32⟩
  | .hbm, ⟨23, _⟩ => ⟨S1024, .f32⟩
  | .hbm, ⟨24, _⟩ => ⟨S1024x1, .f32⟩
  | .hbm, ⟨25, _⟩ => ⟨S1024x1, .f32⟩
  | .hbm, ⟨26, _⟩ => ⟨S_, .i32⟩
  | .hbm, ⟨27, _⟩ => ⟨S262144, .i32⟩
  | .hbm, ⟨28, _⟩ => ⟨S262144, .i1⟩
  | .hbm, ⟨29, _⟩ => ⟨S_, .i32⟩
  | .hbm, ⟨30, _⟩ => ⟨S262144, .i32⟩
  | .hbm, ⟨31, _⟩ => ⟨S262144, .i32⟩
  | .hbm, ⟨32, _⟩ => ⟨S262144, .i32⟩
  | .hbm, ⟨33, _⟩ => ⟨S262144x1, .i32⟩
  | .hbm, ⟨34, _⟩ => ⟨S262144x1, .f32⟩
  | .hbm, ⟨35, _⟩ => ⟨S262144x256, .f32⟩
  | .hbm, ⟨36, _⟩ => ⟨S262144x256, .f32⟩
  | .hbm, ⟨37, _⟩ => ⟨S262144x256, .f32⟩
  | .hbm, ⟨38, _⟩ => ⟨S_, .f32⟩
  | .hbm, ⟨39, _⟩ => ⟨S1024x256, .f32⟩
  | .hbm, ⟨40, _⟩ => ⟨S262144x1, .i32⟩
  | .hbm, ⟨41, _⟩ => ⟨S1024x256, .f32⟩
  | .hbm, ⟨42, _⟩ => ⟨S_, .f32⟩
  | .hbm, ⟨43, _⟩ => ⟨S1024, .f32⟩
  | .hbm, ⟨44, _⟩ => ⟨S1024x1, .f32⟩
  | .hbm, ⟨45, _⟩ => ⟨S1024x1, .f32⟩
  | .hbm, ⟨46, _⟩ => ⟨S1024x1, .f32⟩
  | .hbm, ⟨47, _⟩ => ⟨S_, .i32⟩
  | .hbm, ⟨48, _⟩ => ⟨S262144, .i32⟩
  | .hbm, ⟨49, _⟩ => ⟨S262144, .i1⟩
  | .hbm, ⟨50, _⟩ => ⟨S_, .i32⟩
  | .hbm, ⟨51, _⟩ => ⟨S262144, .i32⟩
  | .hbm, ⟨52, _⟩ => ⟨S262144, .i32⟩
  | .hbm, ⟨53, _⟩ => ⟨S262144, .i32⟩
  | .hbm, ⟨54, _⟩ => ⟨S262144x1, .i32⟩
  | .hbm, ⟨55, _⟩ => ⟨S262144x1, .f32⟩
  | .hbm, ⟨56, _⟩ => ⟨S_, .f32⟩
  | .hbm, ⟨57, _⟩ => ⟨S262144x1, .f32⟩
  | .hbm, ⟨58, _⟩ => ⟨S262144x1, .f32⟩
  | .hbm, ⟨59, _⟩ => ⟨S262144x256, .f32⟩
  | .hbm, ⟨60, _⟩ => ⟨S262144x256, .f32⟩
  | .hbm, ⟨61, _⟩ => ⟨S1x256, .f32⟩
  | .hbm, ⟨62, _⟩ => ⟨S262144x256, .f32⟩
  | .hbm, ⟨63, _⟩ => ⟨S262144x256, .f32⟩
  | .hbm, ⟨64, _⟩ => ⟨S1x256, .f32⟩
  | .hbm, ⟨65, _⟩ => ⟨S262144x256, .f32⟩
  | .hbm, ⟨66, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S1024 : S_.BroadcastsInDim S1024 (![] : Fin 0 → Fin S1024.rank)
  bcast_S262144_S262144x1_0 : S262144.BroadcastsInDim S262144x1 (![0] : Fin 1 → Fin S262144x1.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S_S1024x256 : S_.BroadcastsInDim S1024x256 (![] : Fin 0 → Fin S1024x256.rank)
  reducesTo_S1024x256_S1024_d1 : S1024x256.ReducesTo [1] S1024
  h_S_ : 0 < S_.numel
  bcast_S262144x1_S262144x256_0_1 : S262144x1.BroadcastsInDim S262144x256 (![0, 1] : Fin 2 → Fin S262144x256.rank)
  bcast_S_S262144x1 : S_.BroadcastsInDim S262144x1 (![] : Fin 0 → Fin S262144x1.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  scatter_S1024_S262144x1_S262144_n_0_0_1_wf : ScatterDims.WF S1024 S262144x1 S262144 [] [0] [0] 1
  scatter_S1024x256_S262144x1_S262144x256_1_0_0_1_wf : ScatterDims.WF S1024x256 S262144x1 S262144x256 [1] [0] [0] 1
  gather_S1024x1_S262144x1_S262144x1_1_0_n_n_0_1_11_wf : GatherDims.WF S1024x1 S262144x1 S262144x1 [1] [0] [] [0] [] 1 ![1, 1]

variable [Facts₀]

def scatter_S1024_S262144x1_S262144_n_0_0_1 : ScatterDims S1024 S262144x1 S262144 where
  updateWindowDims := []
  insertedWindowDims := [0]
  scatterDimsToOperandDims := [0]
  indexVectorDim := 1
  wf := scatter_S1024_S262144x1_S262144_n_0_0_1_wf
def scatter_S1024x256_S262144x1_S262144x256_1_0_0_1 : ScatterDims S1024x256 S262144x1 S262144x256 where
  updateWindowDims := [1]
  insertedWindowDims := [0]
  scatterDimsToOperandDims := [0]
  indexVectorDim := 1
  wf := scatter_S1024x256_S262144x1_S262144x256_1_0_0_1_wf
def gather_S1024x1_S262144x1_S262144x1_1_0_n_n_0_1_11 : GatherDims S1024x1 S262144x1 S262144x1 where
  offsetDims := [1]
  collapsedSliceDims := [0]
  operandBatchingDims := []
  startIndicesBatchingDims := []
  startIndexMap := [0]
  indexVectorDim := 1
  sliceSizes := ![1, 1]
  wf := gather_S1024x1_S262144x1_S262144x1_1_0_n_n_0_1_11_wf

class Facts : Prop extends Facts₀ where

variable [Facts]
-- ==== Proof.DataI.lean ====
/-
  The data both halves of the kernel's proof are stated over: for each of the two pallas regions, a window's block at a
  grid point read off the array the region finds, what the body leaves in its output buffer as a function of the input
  blocks (the body's one store over its payload), and the pipeline's proof data built from them; then the contents of
  every unscoped buffer at each boundary between the five items of the entry function (row-statistics region, three
  stretches of host operations, normalisation region), folded from the launch memory.
-/
import proofs.«163727_j40578851012881_2_alg».proof.Proof.Gen.KernelIdeal.Launch
import proofs.«163727_j40578851012881_2_alg».proof.Proof.Gen.KernelIdeal.Skeleton
import proofs.«163727_j40578851012881_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

section Regions
variable (V : (c : Dev nD) → (b : Ref sig .tc) → Buf (Elt F) ((c : Thread nD τ).loc b))

/-! ## The row-statistics region -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 8192 × 256 block and the whole 8192 × 2 block, as rectangles. -/
abbrev rX : Rect S8192x256 := Rect.unit (s := S8192x256) ![0, 0] S8192x256.size inb_S8192x256_S8192x256_0_0
abbrev rP : Rect S8192x2 := Rect.unit (s := S8192x2) ![0, 0] S8192x2.size inb_S8192x2_S8192x2_0_0
abbrev rW : Rect S256 := Rect.unit (s := S256) ![0] S256.size inb_S256_S256_0

/-- The statistics block the body leaves: per row of the input block, the row's sum and the sum of its squares. -/
def out0_1 (x0 : Vec F S8192x256 .f32) : Vec F S8192x2 .f32 :=
  View.canon [⟨rP, k0_pay1 (View.ld x0 rX)⟩]

/-- The proof data of the row-statistics pipeline: arrays as found; the input's buffer keeps its block, the output's
    holds the statistics of that block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-! ## The normalisation region -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block the body leaves: the input block scaled and shifted row by row by the two per-row parameters, then
    scaled and shifted column by column by the weight and the bias. -/
def out1_4 (x0 : Vec F S8192x256 .f32) (x1 : Vec F S8192x2 .f32) (x2 : Vec F S256 .f32) (x3 : Vec F S256 .f32) : Vec F S8192x256 .f32 :=
  View.canon [⟨rX, k1_pay1 (View.ld x0 rX) (View.ld x1 rP) (View.ld x2 rW) (View.ld x3 rW)⟩]

/-- The proof data of the normalisation pipeline: arrays as found; each input's buffer keeps its block, the output's
    holds the normalised block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

end Regions

/-! ## The buffer contents at each boundary between the items of the entry function -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the row-statistics region: its arrays at what the pipeline leaves, every other buffer as it was. -/
def W1 (c : Dev nD) : Valuation τ sig (Elt F) :=
  Pipeline.withArrays spec0 c (W0 m ρ c) fun w => (dat0 (V0 m ρ) c).arrAt w cfg0.N
abbrev V1 : (c : Dev nD) → (b : Ref sig .tc) → Buf (Elt F) ((c : Thread nD τ).loc b) := fun c b => W1 m ρ c b
/-- After the first stretch of host operations (the packed segment sum and its three columns). -/
abbrev W2 : Dev nD → Valuation τ sig (Elt F) := fun c => StableHlo.after hostOps1 (W1 m ρ c)
/-- After the clamp of the node counts from below by one. -/
abbrev W3 : Dev nD → Valuation τ sig (Elt F) := fun c => StableHlo.after hostOps1_1 (W2 m ρ c)
/-- After the last stretch (means, variances, the two per-graph parameters, their gather to the rows). -/
abbrev W4 : Dev nD → Valuation τ sig (Elt F) := fun c => StableHlo.after hostOps1_2 (W3 m ρ c)
abbrev V4 : (c : Dev nD) → (b : Ref sig .tc) → Buf (Elt F) ((c : Thread nD τ).loc b) := fun c b => W4 m ρ c b
/-- After the normalisation region. -/
def W5 (c : Dev nD) : Valuation τ sig (Elt F) :=
  Pipeline.withArrays spec1 c (W4 m ρ c) fun w => (dat1 (V4 m ρ) c).arrAt w cfg1.N
abbrev V5 : (c : Dev nD) → (b : Ref sig .tc) → Buf (Elt F) ((c : Thread nD τ).loc b) := fun c b => W5 m ρ c b

theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb

/-! ## The proof data family -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V4 m ρ) c

end Cert.KernelIdeal.Hand

end
-- ==== Proof.BodyI.lean ====
/-
  The two pallas regions' bodies, each at the buffer contents `V` its region is entered from. For every input window the
  staging buffer the body is called on holds that window's block of the array at the current grid point, whether the
  block was fetched at this point or at an earlier one. The body reads its input blocks whole and stores one whole
  block, so it leaves the inputs as they were and the output buffer at the stored payload; this is the obligation the
  pipeline asks of a body at every grid point.
-/
import proofs.«163727_j40578851012881_2_alg».proof.Proof.DataI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The row-statistics region -/

/-- The input window's current staging buffer holds its block at every grid point, for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one store is of the whole 8192 × 2 block, so it covers the output buffer. -/
theorem cover0_1 (p0 : Vec F S8192x2 .f32) (y : S8192x2.Idx) :
    ∃ pc ∈ ([⟨rP, p0⟩] : List (View.Piece (Elt F) S8192x2 .f32)), y ∈ pc.1.set :=
  View.cover_of_tiled [⟨rP, p0⟩] S8192x2.size (by rfl) y

set_option maxHeartbeats 1000000 in
/-- The row-statistics body on whole staging buffers, the input's at contents `x0` and the output's at anything, runs
    to the continuation with the input's as it was and the output's at the statistics of `x0`. -/
theorem sound_kernel0 (c : Dev nD) (E : Set ℕ) (i : grid0.Coords) (arg1 : Memref sig .tc .vmem S8192x256 .f32) (harg1 : arg1.IsWhole)
    (arg2 : Memref sig .tc .vmem S8192x2 .f32) (harg2 : arg2.IsWhole)
    (x0 : Vec F S8192x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__row_stats_kernel i arg1 harg1 arg2 harg2) K := by
  simp only [cc0__row_stats_kernel_eq_skeleton]; unfold cc0__row_stats_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

theorem before0_0 (c : Dev nD) (t : Fin cfg0.N) (d) : (dat0 V c).before 0 t d = iblk0 V c 0 t :=
  before0_0_of V (dat0 V c) (A_eq0 V c 0) (after0_0 V c) t d

/-- What the body is called with at grid point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any grid point: the input's buffer holds its block, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every grid point. -/
theorem body_obligation0 (c : Dev nD) : BodyObligation (dat0 (F := F) V c) (defs₀ (F := F)) Variants.none () Set.univ := fun t => by
  rw [bigSep_W0, bigSep_W0]
  exact sound_body0 V c t

/-! ## The normalisation region -/

/-- Each input window's current staging buffer holds its block at every grid point, fetched there or earlier (the weight
    and the bias are fetched once, at the first point, and their block never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The one store is of the whole 8192 × 256 block, so it covers the output buffer. -/
theorem cover1_4 (p0 : Vec F S8192x256 .f32) (y : S8192x256.Idx) :
    ∃ pc ∈ ([⟨rX, p0⟩] : List (View.Piece (Elt F) S8192x256 .f32)), y ∈ pc.1.set :=
  View.cover_of_tiled [⟨rX, p0⟩] S8192x256.size (by rfl) y

set_option maxHeartbeats 1000000 in
/-- The normalisation body on whole staging buffers, the four inputs' at contents `x0 … x3` and the output's at
    anything, runs to the continuation with the inputs' as they were and the output's at the normalised block. -/
theorem sound_kernel1 (c : Dev nD) (E : Set ℕ) (i : grid1.Coords) (arg1 : Memref sig .tc .vmem S8192x256 .f32) (harg1 : arg1.IsWhole)
    (arg2 : Memref sig .tc .vmem S8192x2 .f32) (harg2 : arg2.IsWhole) (arg3 : Memref sig .tc .vmem S256 .f32) (harg3 : arg3.IsWhole)
    (arg4 : Memref sig .tc .vmem S256 .f32) (harg4 : arg4.IsWhole) (arg5 : Memref sig .tc .vmem S8192x256 .f32) (harg5 : arg5.IsWhole)
    (x0 : Vec F S8192x256 .f32) (x1 : Vec F S8192x2 .f32) (x2 : Vec F S256 .f32) (x3 : Vec F S256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__normalize_kernel i arg1 harg1 arg2 harg2 arg3 harg3 arg4 harg4 arg5 harg5) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at grid point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any grid point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every grid point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.RunI.lean ====
/-
  The run of the entry function: a row-statistics region, three stretches of host operations, a normalisation region.
  Between two items every TensorCore holds each of its unscoped buffers whole at the contents folded from the launch
  memory (`W0 … W5`), beside its generator register and nothing owed. A region splits its windows' arrays out of those
  buffers, runs the pipeline over them with the body's obligation, and puts them back at what the write-backs leave; a
  host stretch rewrites the buffers it writes. At the end the output buffer is read at the last contents, and each
  argument is traced back through the fold to the launch memory: no host operation writes an argument and a region only
  reads it.
-/
import proofs.«163727_j40578851012881_2_alg».proof.Proof.BodyI
import proofs.«163727_j40578851012881_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A region's exit contents: its arrays at what the pipeline leaves, every other buffer as entered -/

theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-! ## The arguments end as launched -/

/-- A buffer none of the three host stretches writes holds, when the normalisation region is entered, what the
    row-statistics region left in it. -/
theorem W4_of_host (c : Dev nD) (r : Ref sig .tc) (h1 : r ∉ hostOps1_W) (h2 : r ∉ hostOps1_1_W) (h3 : r ∉ hostOps1_2_W) :
    W4 m ρ c (Proc.devRef .tc r) = W1 m ρ c (Proc.devRef .tc r) :=
  calc W4 m ρ c (Proc.devRef .tc r)
    _ = W3 m ρ c (Proc.devRef .tc r) := StableHlo.after_of_writes_sub hostOps1_2 _ hostOps1_2_writes h3
    _ = W2 m ρ c (Proc.devRef .tc r) := StableHlo.after_of_writes_sub hostOps1_1 _ hostOps1_1_writes h2
    _ = W1 m ρ c (Proc.devRef .tc r) := StableHlo.after_of_writes_sub hostOps1 _ hostOps1_writes h1

/-- The input array: both regions read it through an input window, whose array the pipeline never changes. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := (W5_arr m ρ c 0).trans (((dat1 (V4 m ρ) c).arrAt_in 0 rfl _).trans (A_eq1 (V4 m ρ) c 0))
    _ = W1 m ρ c (Proc.devRef .tc main_arg0) := W4_of_host m ρ c main_arg0 (by decide) (by decide) (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
/-- The segment ids: no region has them as a window and the host stretches only read them. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W1 m ρ c (Proc.devRef .tc main_arg1) := W4_of_host m ρ c main_arg1 (by decide) (by decide) (by decide)
    _ = W0 m ρ c (Proc.devRef .tc main_arg1) := W1_of_ne m ρ c main_arg1 (by decide)
    _ = m ((c : Thread nD τ).loc main_arg1) := rfl
/-- The weight: an input window of the normalisation region only. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := (W5_arr m ρ c 2).trans (((dat1 (V4 m ρ) c).arrAt_in 2 rfl _).trans (A_eq1 (V4 m ρ) c 2))
    _ = W1 m ρ c (Proc.devRef .tc main_arg2) := W4_of_host m ρ c main_arg2 (by decide) (by decide) (by decide)
    _ = W0 m ρ c (Proc.devRef .tc main_arg2) := W1_of_ne m ρ c main_arg2 (by decide)
    _ = m ((c : Thread nD τ).loc main_arg2) := rfl
/-- The bias: an input window of the normalisation region only. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := (W5_arr m ρ c 3).trans (((dat1 (V4 m ρ) c).arrAt_in 3 rfl _).trans (A_eq1 (V4 m ρ) c 3))
    _ = W1 m ρ c (Proc.devRef .tc main_arg3) := W4_of_host m ρ c main_arg3 (by decide) (by decide) (by decide)
    _ = W0 m ρ c (Proc.devRef .tc main_arg3) := W1_of_ne m ρ c main_arg3 (by decide)
    _ = m ((c : Thread nD τ).loc main_arg3) := rfl

/-! ## The thread state between items -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and nothing owed. -/
abbrev R (c : Dev nD) : sProp 𝕄 := iprop((∃ r, prngReg c r) ∗ ∃ W, owes (c : Thread nD τ) (0 : CellTallies nD τ sig Unit) W)
/-- A stretch of host operations as a segment over the unscoped buffers from the contents `W`, `R` riding along; it leaves
    them at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at
    some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The row-statistics region: entered from every unscoped buffer at the launch contents, left at `W1`. Its two arrays
    are split out of the unscoped buffers and put back at the exit contents; the generator register goes into the
    pipeline's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalisation region: entered from every unscoped buffer at `W4`, left at `W5` (what the launch reads at the
    end). Its five arrays are split out of the unscoped buffers and put back at the exit contents; the generator register
    goes into the pipeline's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the launch -/

/-- The five items in order: the row-statistics region, the three host stretches each from its boundary's contents, the
    normalisation region. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (reg1 m ρ) ]

/-- The entry function is the run of the segments: both are the chain of the same five programs. -/
theorem main_run (c : Dev nD) : main (F := F) c = Pipeline.Seg.run (segs m ρ) := by
  rw [main_chain c, Pipeline.Seg.run_eq_chain]
  rfl

set_option backward.isDefEq.respectTransparency.types false in
/-- From any memory with zero counters, every weakly fair execution of the entry function on the TensorCores terminates
    without fault, and in every final state each core's output buffer holds the last contents `W5` and every argument
    its launch contents. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v45) = W5 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v45 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Hand

end
-- ==== Proof.DataB.lean ====
/-
  The data both halves of the kernel's proof are stated over: for each of the two pallas regions, a window's block at a
  grid point read off the array the region finds, what the body leaves in its output buffer as a function of the input
  blocks (the body's one store over its payload), and the pipeline's proof data built from them; then the contents of
  every unscoped buffer at each boundary between the five items of the entry function (row-statistics region, three
  stretches of host operations, normalisation region), folded from the launch memory.
-/
import proofs.«163727_j40578851012881_2_alg».proof.Proof.Gen.Kernel.Launch
import proofs.«163727_j40578851012881_2_alg».proof.Proof.Gen.Kernel.Skeleton
import proofs.«163727_j40578851012881_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

section Regions
variable (V : (c : Dev nD) → (b : Ref sig .tc) → Buf (Elt F) ((c : Thread nD τ).loc b))

/-! ## The row-statistics region -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 8192 × 256 block and the whole 8192 × 2 block, as rectangles. -/
abbrev rX : Rect S8192x256 := Rect.unit (s := S8192x256) ![0, 0] S8192x256.size inb_S8192x256_S8192x256_0_0
abbrev rP : Rect S8192x2 := Rect.unit (s := S8192x2) ![0, 0] S8192x2.size inb_S8192x2_S8192x2_0_0
abbrev rW : Rect S256 := Rect.unit (s := S256) ![0] S256.size inb_S256_S256_0

/-- The statistics block the body leaves: per row of the input block, the row's sum and the sum of its squares. -/
def out0_1 (x0 : Vec F S8192x256 .f32) : Vec F S8192x2 .f32 :=
  View.canon [⟨rP, k0_pay1 (View.ld x0 rX)⟩]

/-- The proof data of the row-statistics pipeline: arrays as found; the input's buffer keeps its block, the output's
    holds the statistics of that block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-! ## The normalisation region -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block the body leaves: the input block scaled and shifted row by row by the two per-row parameters, then
    scaled and shifted column by column by the weight and the bias. -/
def out1_4 (x0 : Vec F S8192x256 .f32) (x1 : Vec F S8192x2 .f32) (x2 : Vec F S256 .f32) (x3 : Vec F S256 .f32) : Vec F S8192x256 .f32 :=
  View.canon [⟨rX, k1_pay1 (View.ld x0 rX) (View.ld x1 rP) (View.ld x2 rW) (View.ld x3 rW)⟩]

/-- The proof data of the normalisation pipeline: arrays as found; each input's buffer keeps its block, the output's
    holds the normalised block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

end Regions

/-! ## The buffer contents at each boundary between the items of the entry function -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the row-statistics region: its arrays at what the pipeline leaves, every other buffer as it was. -/
def W1 (c : Dev nD) : Valuation τ sig (Elt F) :=
  Pipeline.withArrays spec0 c (W0 m ρ c) fun w => (dat0 (V0 m ρ) c).arrAt w cfg0.N
abbrev V1 : (c : Dev nD) → (b : Ref sig .tc) → Buf (Elt F) ((c : Thread nD τ).loc b) := fun c b => W1 m ρ c b
/-- After the first stretch of host operations (the packed segment sum and its three columns). -/
abbrev W2 : Dev nD → Valuation τ sig (Elt F) := fun c => StableHlo.after hostOps1 (W1 m ρ c)
/-- After the clamp of the node counts from below by one. -/
abbrev W3 : Dev nD → Valuation τ sig (Elt F) := fun c => StableHlo.after hostOps1_1 (W2 m ρ c)
/-- After the last stretch (means, variances, the two per-graph parameters, their gather to the rows). -/
abbrev W4 : Dev nD → Valuation τ sig (Elt F) := fun c => StableHlo.after hostOps1_2 (W3 m ρ c)
abbrev V4 : (c : Dev nD) → (b : Ref sig .tc) → Buf (Elt F) ((c : Thread nD τ).loc b) := fun c b => W4 m ρ c b
/-- After the normalisation region. -/
def W5 (c : Dev nD) : Valuation τ sig (Elt F) :=
  Pipeline.withArrays spec1 c (W4 m ρ c) fun w => (dat1 (V4 m ρ) c).arrAt w cfg1.N
abbrev V5 : (c : Dev nD) → (b : Ref sig .tc) → Buf (Elt F) ((c : Thread nD τ).loc b) := fun c b => W5 m ρ c b

theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb

/-! ## The proof data family -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V4 m ρ) c

end Cert.Kernel.Hand

end
-- ==== Proof.BodyB.lean ====
/-
  The two pallas regions' bodies, each at the buffer contents `V` its region is entered from. For every input window the
  staging buffer the body is called on holds that window's block of the array at the current grid point, whether the
  block was fetched at this point or at an earlier one. The body reads its input blocks whole and stores one whole
  block, so it leaves the inputs as they were and the output buffer at the stored payload; this is the obligation the
  pipeline asks of a body at every grid point.
-/
import proofs.«163727_j40578851012881_2_alg».proof.Proof.DataB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The row-statistics region -/

/-- The input window's current staging buffer holds its block at every grid point, for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one store is of the whole 8192 × 2 block, so it covers the output buffer. -/
theorem cover0_1 (p0 : Vec F S8192x2 .f32) (y : S8192x2.Idx) :
    ∃ pc ∈ ([⟨rP, p0⟩] : List (View.Piece (Elt F) S8192x2 .f32)), y ∈ pc.1.set :=
  View.cover_of_tiled [⟨rP, p0⟩] S8192x2.size (by rfl) y

set_option maxHeartbeats 1000000 in
/-- The row-statistics body on whole staging buffers, the input's at contents `x0` and the output's at anything, runs
    to the continuation with the input's as it was and the output's at the statistics of `x0`. -/
theorem sound_kernel0 (c : Dev nD) (E : Set ℕ) (i : grid0.Coords) (arg1 : Memref sig .tc .vmem S8192x256 .f32) (harg1 : arg1.IsWhole)
    (arg2 : Memref sig .tc .vmem S8192x2 .f32) (harg2 : arg2.IsWhole)
    (x0 : Vec F S8192x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__row_stats_kernel i arg1 harg1 arg2 harg2) K := by
  simp only [cc0__row_stats_kernel_eq_skeleton]; unfold cc0__row_stats_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

theorem before0_0 (c : Dev nD) (t : Fin cfg0.N) (d) : (dat0 V c).before 0 t d = iblk0 V c 0 t :=
  before0_0_of V (dat0 V c) (A_eq0 V c 0) (after0_0 V c) t d

/-- What the body is called with at grid point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any grid point: the input's buffer holds its block, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every grid point. -/
theorem body_obligation0 (c : Dev nD) : BodyObligation (dat0 (F := F) V c) (defs₀ (F := F)) Variants.none () Set.univ := fun t => by
  rw [bigSep_W0, bigSep_W0]
  exact sound_body0 V c t

/-! ## The normalisation region -/

/-- Each input window's current staging buffer holds its block at every grid point, fetched there or earlier (the weight
    and the bias are fetched once, at the first point, and their block never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The one store is of the whole 8192 × 256 block, so it covers the output buffer. -/
theorem cover1_4 (p0 : Vec F S8192x256 .f32) (y : S8192x256.Idx) :
    ∃ pc ∈ ([⟨rX, p0⟩] : List (View.Piece (Elt F) S8192x256 .f32)), y ∈ pc.1.set :=
  View.cover_of_tiled [⟨rX, p0⟩] S8192x256.size (by rfl) y

set_option maxHeartbeats 1000000 in
/-- The normalisation body on whole staging buffers, the four inputs' at contents `x0 … x3` and the output's at
    anything, runs to the continuation with the inputs' as they were and the output's at the normalised block. -/
theorem sound_kernel1 (c : Dev nD) (E : Set ℕ) (i : grid1.Coords) (arg1 : Memref sig .tc .vmem S8192x256 .f32) (harg1 : arg1.IsWhole)
    (arg2 : Memref sig .tc .vmem S8192x2 .f32) (harg2 : arg2.IsWhole) (arg3 : Memref sig .tc .vmem S256 .f32) (harg3 : arg3.IsWhole)
    (arg4 : Memref sig .tc .vmem S256 .f32) (harg4 : arg4.IsWhole) (arg5 : Memref sig .tc .vmem S8192x256 .f32) (harg5 : arg5.IsWhole)
    (x0 : Vec F S8192x256 .f32) (x1 : Vec F S8192x2 .f32) (x2 : Vec F S256 .f32) (x3 : Vec F S256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__normalize_kernel i arg1 harg1 arg2 harg2 arg3 harg3 arg4 harg4 arg5 harg5) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at grid point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any grid point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every grid point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.RunB.lean ====
/-
  The run of the entry function: a row-statistics region, three stretches of host operations, a normalisation region.
  Between two items every TensorCore holds each of its unscoped buffers whole at the contents folded from the launch
  memory (`W0 … W5`), beside its generator register and nothing owed. A region splits its windows' arrays out of those
  buffers, runs the pipeline over them with the body's obligation, and puts them back at what the write-backs leave; a
  host stretch rewrites the buffers it writes. At the end the output buffer is read at the last contents, and each
  argument is traced back through the fold to the launch memory: no host operation writes an argument and a region only
  reads it.
-/
import proofs.«163727_j40578851012881_2_alg».proof.Proof.BodyB
import proofs.«163727_j40578851012881_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A region's exit contents: its arrays at what the pipeline leaves, every other buffer as entered -/

theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-! ## The arguments end as launched -/

/-- A buffer none of the three host stretches writes holds, when the normalisation region is entered, what the
    row-statistics region left in it. -/
theorem W4_of_host (c : Dev nD) (r : Ref sig .tc) (h1 : r ∉ hostOps1_W) (h2 : r ∉ hostOps1_1_W) (h3 : r ∉ hostOps1_2_W) :
    W4 m ρ c (Proc.devRef .tc r) = W1 m ρ c (Proc.devRef .tc r) :=
  calc W4 m ρ c (Proc.devRef .tc r)
    _ = W3 m ρ c (Proc.devRef .tc r) := StableHlo.after_of_writes_sub hostOps1_2 _ hostOps1_2_writes h3
    _ = W2 m ρ c (Proc.devRef .tc r) := StableHlo.after_of_writes_sub hostOps1_1 _ hostOps1_1_writes h2
    _ = W1 m ρ c (Proc.devRef .tc r) := StableHlo.after_of_writes_sub hostOps1 _ hostOps1_writes h1

/-- The input array: both regions read it through an input window, whose array the pipeline never changes. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := (W5_arr m ρ c 0).trans (((dat1 (V4 m ρ) c).arrAt_in 0 rfl _).trans (A_eq1 (V4 m ρ) c 0))
    _ = W1 m ρ c (Proc.devRef .tc main_arg0) := W4_of_host m ρ c main_arg0 (by decide) (by decide) (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
/-- The segment ids: no region has them as a window and the host stretches only read them. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W1 m ρ c (Proc.devRef .tc main_arg1) := W4_of_host m ρ c main_arg1 (by decide) (by decide) (by decide)
    _ = W0 m ρ c (Proc.devRef .tc main_arg1) := W1_of_ne m ρ c main_arg1 (by decide)
    _ = m ((c : Thread nD τ).loc main_arg1) := rfl
/-- The weight: an input window of the normalisation region only. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := (W5_arr m ρ c 2).trans (((dat1 (V4 m ρ) c).arrAt_in 2 rfl _).trans (A_eq1 (V4 m ρ) c 2))
    _ = W1 m ρ c (Proc.devRef .tc main_arg2) := W4_of_host m ρ c main_arg2 (by decide) (by decide) (by decide)
    _ = W0 m ρ c (Proc.devRef .tc main_arg2) := W1_of_ne m ρ c main_arg2 (by decide)
    _ = m ((c : Thread nD τ).loc main_arg2) := rfl
/-- The bias: an input window of the normalisation region only. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := (W5_arr m ρ c 3).trans (((dat1 (V4 m ρ) c).arrAt_in 3 rfl _).trans (A_eq1 (V4 m ρ) c 3))
    _ = W1 m ρ c (Proc.devRef .tc main_arg3) := W4_of_host m ρ c main_arg3 (by decide) (by decide) (by decide)
    _ = W0 m ρ c (Proc.devRef .tc main_arg3) := W1_of_ne m ρ c main_arg3 (by decide)
    _ = m ((c : Thread nD τ).loc main_arg3) := rfl

/-! ## The thread state between items -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and nothing owed. -/
abbrev R (c : Dev nD) : sProp 𝕄 := iprop((∃ r, prngReg c r) ∗ ∃ W, owes (c : Thread nD τ) (0 : CellTallies nD τ sig Unit) W)
/-- A stretch of host operations as a segment over the unscoped buffers from the contents `W`, `R` riding along; it leaves
    them at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at
    some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The row-statistics region: entered from every unscoped buffer at the launch contents, left at `W1`. Its two arrays
    are split out of the unscoped buffers and put back at the exit contents; the generator register goes into the
    pipeline's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalisation region: entered from every unscoped buffer at `W4`, left at `W5` (what the launch reads at the
    end). Its five arrays are split out of the unscoped buffers and put back at the exit contents; the generator register
    goes into the pipeline's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the launch -/

/-- The five items in order: the row-statistics region, the three host stretches each from its boundary's contents, the
    normalisation region. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (reg1 m ρ) ]

/-- The entry function is the run of the segments: both are the chain of the same five programs. -/
theorem main_run (c : Dev nD) : main (F := F) c = Pipeline.Seg.run (segs m ρ) := by
  rw [main_chain c, Pipeline.Seg.run_eq_chain]
  rfl

set_option backward.isDefEq.respectTransparency.types false in
/-- From any memory with zero counters, every weakly fair execution of the entry function on the TensorCores terminates
    without fault, and in every final state each core's output buffer holds the last contents `W5` and every argument
    its launch contents. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v45) = W5 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v45 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.Kernel.Hand

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibRows.lean ====
/-
  General lemmas about whole rows of rank-two arrays: a gather of rows of a table at a column of start indices, read
  at an entry; two arrays of equal height laid side by side, read left and right of the seam; two vectors laid end to
  end; a one-column array cast to a vector; a unit-stride cut of a vector. None mentions a program.
-/
import Idealize.ShloMosaic.Lib.ValueIdx
import Idealize.ShloMosaic.Lib.ValueLayout
import Idealize.ShloMosaic.Lib.Pipeline.Value

noncomputable section

namespace Cert.RowsLib

open Idealize.ShloMosaic Idealize.ShloMosaic.ValueIdx

variable {α : Type}

/-! ## A gather of whole rows -/

/-- The dimension numbers of a gather of whole rows: a table of N rows of C entries, a column of R start indices, a
    result of R rows; the row axis is collapsed and named by the start index, the column axis is the offset axis. -/
abbrev rowGatherDims (N C R : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: the word read as a signed integer, clamped into the table. -/
def rowOf (N : ℕ) (hN : 0 < N) {w : ℕ} (b : BitVec w) : Fin N := ⟨min b.toInt.toNat (N - 1), by omega⟩

/-- THE ROW GATHER READ AT (r, c): the table at the row that start index r names, column c. -/
theorem gather_rows_apply {N C R w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N C R wf) x idx (ix2 r c) = x (ix2 (rowOf N hN (idx (ix2 r (0 : Fin 1)))) c) := by
  unfold Host.gather
  congr 1
  funext a
  refine Fin.ext ?_
  match a with
  | ⟨0, _⟩ =>
    show (rowGatherDims N C R wf).start (ix2 r c) idx 0 + (rowGatherDims N C R wf).batchCoord (ix2 r c) 0
      + (rowGatherDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 r c) ⟨List.idxOf (0 : Fin 2) (rowGatherDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N C R wf).start (ix2 r c) idx 1 + (rowGatherDims N C R wf).batchCoord (ix2 r c) 1
      + (rowGatherDims N C R wf).offCoord (ix2 r c) 1 = c.val
    rw [GatherDims.batchCoord_eq_zero _ _ _ List.not_mem_nil]
    unfold GatherDims.start
    rw [dif_neg (show (1 : Fin 2) ∉ (rowGatherDims N C R wf).startIndexMap from (by decide : (1 : Fin 2) ∉ ([0] : List (Fin 2))))]
    unfold GatherDims.offCoord
    rw [dif_pos (show (1 : Fin 2) ∈ (rowGatherDims N C R wf).sKept from
      (GatherDims.mem_sKept _ _).mpr ⟨(by decide : (1 : Fin 2) ∉ ([0] : List (Fin 2))), List.not_mem_nil⟩)]
    simp only [Nat.zero_add]
    rfl

/-! ## Side by side, end to end -/

/-- Two arrays of M rows laid side by side: left of the seam the result reads the first. -/
theorem concat_cols_left {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin A) (k' : Fin T) (hk : k'.val = k.val) :
    concatenate ⟨2, ![M, T]⟩ (1 : Fin 2) [⟨⟨2, ![M, A]⟩, x₁⟩, ⟨⟨2, ![M, B]⟩, x₂⟩] h (ix2 p k') = x₁ (ix2 p k) :=
  concatenate_pair_apply_left (1 : Fin 2) x₁ x₂ h (ix2 p k') rfl (ix2 p k) (fun b => by
    match b with
    | ⟨0, _⟩ => rfl
    | ⟨1, _⟩ => exact hk.symm)

/-- Right of the seam it reads the second, the first one's width less. -/
theorem concat_cols_right {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin B) (k' : Fin T) (hk : k'.val = A + k.val) :
    concatenate ⟨2, ![M, T]⟩ (1 : Fin 2) [⟨⟨2, ![M, A]⟩, x₁⟩, ⟨⟨2, ![M, B]⟩, x₂⟩] h (ix2 p k') = x₂ (ix2 p k) :=
  concatenate_pair_apply_right (1 : Fin 2) x₁ x₂ h (ix2 p k') rfl rfl (ix2 p k) (fun b hb => by
    match b with
    | ⟨0, _⟩ => rfl
    | ⟨1, _⟩ => exact absurd rfl hb) (by
    show k.val + A = k'.val
    omega)

/-- Two vectors laid end to end: before the seam the result reads the first. -/
theorem concat_vec_left {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin A) (k' : Fin T) (hk : k'.val = k.val) :
    concatenate ⟨1, ![T]⟩ (0 : Fin 1) [⟨⟨1, ![A]⟩, x₁⟩, ⟨⟨1, ![B]⟩, x₂⟩] h (ix1 k') = x₁ (ix1 k) :=
  concatenate_pair_apply_left (0 : Fin 1) x₁ x₂ h (ix1 k') rfl (ix1 k) (fun b => by
    match b with
    | ⟨0, _⟩ => exact hk.symm)

/-- After the seam it reads the second, the first one's length less. -/
theorem concat_vec_right {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin B) (k' : Fin T) (hk : k'.val = A + k.val) :
    concatenate ⟨1, ![T]⟩ (0 : Fin 1) [⟨⟨1, ![A]⟩, x₁⟩, ⟨⟨1, ![B]⟩, x₂⟩] h (ix1 k') = x₂ (ix1 k) :=
  concatenate_pair_apply_right (0 : Fin 1) x₁ x₂ h (ix1 k') rfl rfl (ix1 k) (fun b hb => by
    match b with
    | ⟨0, _⟩ => exact absurd rfl hb) (by
    show k.val + A = k'.val
    omega)

/-! ## Small casts and cuts -/

/-- A one-column array cast to a vector reads, at p, the column at p. -/
theorem shapeCast_colvec_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A vector cut from o reads, at j, the source at o + j. -/
theorem slice_vec_apply {n m : ℕ} (o : ℕ) (x : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] x h (ix1 j) = x (ix1 k) :=
  extractStridedSlice_apply _ _ _ _ _ (fun ax => by
    match ax with
    | ⟨0, _⟩ => exact hk)

end Cert.RowsLib

end
-- ==== Proof.StatsValue.lean ====
/-
  What the row-statistics region leaves in its output array, read at an index, at the extended reals: per row of the
  input array, the row's sum in column 0 and the sum of its squares in column 1. First the body's block, row by row (a
  sum along the rows, kept as a column, twice, the two columns laid side by side); then each grid point's block as a band
  of 8192 rows of the array, the blocks covering the array, and so the whole array as one function of the input.
-/
import proofs.«163727_j40578851012881_2_alg».proof.Proof.DataI
import proofs.«163727_j40578851012881_2_alg».proof.Proof.LibIndex
import proofs.«163727_j40578851012881_2_alg».proof.Proof.LibRows

set_option maxRecDepth 16384

noncomputable section

namespace Cert.KernelIdeal.Hand

open Idealize.ShloMosaic Idealize.ShloMosaic.ValueIdx Cert.KernelIdeal Cert.KernelIdeal.Gen
open Idealize.ShloMosaic.TcCoe Idealize.SL.Sem
open Idealize.ShloMosaic.Pipeline (Dat)

/-! ## The statistics of one block, row by row -/

/-- A sum along the rows of an 8192 × 256 block, read at row p, is the sum of that row's 256 entries. -/
theorem rowSum_apply (x : FVec Ideal S8192x256 .f32) (hφ : FKind.Formats .f32)
    (hacc : (0x00000000#32 : BitVec 32) = FKind.add.neutral .f32 hφ) (p : Fin 8192) :
    multiReduction (F := Ideal) .add [1] S8192 x 0x00000000#32 reduces_S8192x256_S8192 hφ hacc (ix1 p)
      = ∑ k : Fin 256, x (ix2 p k) :=
  (Ideal.multiReduction_add_single x _ reduces_S8192x256_S8192 hφ hacc (ix1 p)).trans
    (Finset.sum_congr rfl fun k _ => congrArg x (Cert.LayoutLib.lift_row reduces_S8192x256_S8192 p k))

/-- The first column of the statistics block holds each row's sum. -/
theorem stats_block_sum (x0 : Vec Ideal S8192x256 .f32) (p : Fin 8192) :
    (k0_pay1 x0 : S8192x2.Idx → EReal) (ix2 p (0 : Fin 2)) = ∑ k : Fin 256, (x0 : S8192x256.Idx → EReal) (ix2 p k) := by
  unfold k0_pay1
  refine (Cert.RowsLib.concat_cols_left _ _ _ p (0 : Fin 1) (0 : Fin 2) rfl).trans ?_
  refine (Cert.LayoutLib.shapeCast_col_apply _ _ p (0 : Fin 1)).trans ?_
  exact rowSum_apply x0 _ _ p

/-- The second column holds each row's sum of squares. -/
theorem stats_block_sumsq (x0 : Vec Ideal S8192x256 .f32) (p : Fin 8192) :
    (k0_pay1 x0 : S8192x2.Idx → EReal) (ix2 p (1 : Fin 2))
      = ∑ k : Fin 256, (x0 : S8192x256.Idx → EReal) (ix2 p k) * (x0 : S8192x256.Idx → EReal) (ix2 p k) := by
  unfold k0_pay1
  refine (Cert.RowsLib.concat_cols_right _ _ _ p (0 : Fin 1) (1 : Fin 2) rfl).trans ?_
  refine (Cert.LayoutLib.shapeCast_col_apply _ _ p (0 : Fin 1)).trans ?_
  exact rowSum_apply (mulf x0 x0) _ _ p

/-! ## From the blocks to the whole array -/

theorem zeros2 : (![0, 0] : Fin 2 → Nat) = fun _ => 0 := funext fun a => by fin_cases a <;> rfl

/-- Per row of the whole array: the row's sum in column 0, its sum of squares in column 1. -/
def rowStats (X : S262144x256.Idx → EReal) : S262144x2.Idx → EReal := fun j =>
  if (j 1).val = 0 then ∑ k : Fin 256, X (ix2 (j 0 : Fin 262144) k)
  else ∑ k : Fin 256, X (ix2 (j 0 : Fin 262144) k) * X (ix2 (j 0 : Fin 262144) k)

theorem rowStats_sum (X : S262144x256.Idx → EReal) (r : Fin 262144) :
    rowStats X (ix2 r (0 : Fin 2)) = ∑ k : Fin 256, X (ix2 r k) := by
  unfold rowStats; exact if_pos rfl

theorem rowStats_sumsq (X : S262144x256.Idx → EReal) (r : Fin 262144) :
    rowStats X (ix2 r (1 : Fin 2)) = ∑ k : Fin 256, X (ix2 r k) * X (ix2 r k) := by
  unfold rowStats; exact if_neg (show ¬ ((1 : Fin 2).val = 0) from by decide)

/-- The index maps of the row-statistics region, decided over its 32 grid points: both windows' blocks are the
    point's own band of rows, all columns. -/
theorem stats_index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

section
variable (V : (c : Dev nD) → (b : Ref sig .tc) → Buf (Elt Ideal) ((c : Thread nD τ).loc b))

/-- The input block at point t is rows 8192 t … 8192 t + 8191 of the array. -/
theorem stats_input_block (c : Dev nD) (t : Fin cfg0.N) (p : Fin 8192) (k : Fin 256) (r : Fin 262144)
    (hr : r.val = t.val * 8192 + p.val) :
    (iblk0 V c 0 t : S8192x256.Idx → EReal) (ix2 p k) = (V c main_arg0 : S262144x256.Idx → EReal) (ix2 r k) := by
  obtain ⟨e0, e1, -, -⟩ := stats_index_facts t
  unfold iblk0
  rw [View.read_apply]
  show V c main_arg0 _ = V c main_arg0 _
  congr 1
  funext a
  apply Fin.ext
  match a with
  | ⟨0, _⟩ => show win0_0.index t 0 * 8192 + 1 * p.val = r.val; rw [e0, hr]; omega
  | ⟨1, _⟩ => show win0_0.index t 1 * 256 + 1 * k.val = k.val; rw [e1]; omega

/-- What point t writes back is its band of rows of the row statistics of the whole array. -/
theorem stats_flushed (c : Dev nD) (t : Fin cfg0.N) :
    (dat0 V c).flushed 1 t = ((cfg0.win 1).blk t).view.read (Elt Ideal) (rowStats (V c main_arg0)) := by
  show (cfg0.win 1).cut (grid0.coords t) ((dat0 V c).after 1 t) = _
  rw [after0_1]
  unfold out0_1
  rw [View.canon_unit_zero zeros2]
  simp only [View.ld_unit_zero (S := S8192x256) zeros2]
  obtain ⟨-, -, e2, e3⟩ := stats_index_facts t
  funext j
  obtain ⟨p, q, rfl⟩ : ∃ (p : Fin 8192) (q : Fin 2), j = ix2 p q := ⟨j 0, j 1, eq_ix2 j⟩
  have ht : t.val < 32 := lt_of_lt_of_eq t.isLt N_0
  obtain ⟨r, hr⟩ : ∃ r : Fin 262144, r.val = t.val * 8192 + p.val := ⟨⟨t.val * 8192 + p.val, by omega⟩, rfl⟩
  have hemb : ((cfg0.win 1).blk t).view.emb (ix2 p q) = ix2 r q := by
    funext a
    apply Fin.ext
    match a with
    | ⟨0, _⟩ => show win0_1.index t 0 * 8192 + 1 * p.val = r.val; rw [e2, hr]; omega
    | ⟨1, _⟩ => show win0_1.index t 1 * 2 + 1 * q.val = q.val; rw [e3]; omega
  show (k0_pay1 (iblk0 V c 0 t) : S8192x2.Idx → EReal) (ix2 p q) = rowStats (V c main_arg0) (((cfg0.win 1).blk t).view.emb (ix2 p q))
  rw [hemb]
  match q with
  | ⟨0, _⟩ =>
    refine (stats_block_sum _ p).trans ?_
    refine Eq.trans ?_ (rowStats_sum _ _).symm
    exact Finset.sum_congr rfl fun k _ => stats_input_block V c t p k r hr
  | ⟨1, _⟩ =>
    refine (stats_block_sumsq _ p).trans ?_
    refine Eq.trans ?_ (rowStats_sumsq _ _).symm
    exact Finset.sum_congr rfl fun k _ => by rw [stats_input_block V c t p k r hr]

/-- An index of the statistics array is in point t's block iff each coordinate is in the block's range. -/
theorem stats_mem_block (t : Fin cfg0.N) (i : S262144x2.Idx) :
    i ∈ ((cfg0.win 1).blk t).view.set ↔ ∀ a : Fin 2, win0_1.index t a * S8192x2.size a ≤ (i a).val
      ∧ (i a).val < win0_1.index t a * S8192x2.size a + S8192x2.size a := by
  show i ∈ ((View.whole main_v0).slice (win0_1.rect t)).set ↔ _
  rw [View.set_slice_whole, Rect.mem_set_unit]
  exact Iff.rfl

/-- Every row of the statistics array is in the block of the point its band belongs to. -/
theorem stats_cover (i : S262144x2.Idx) :
    ∃ t : Fin cfg0.N, (cfg0.win 1).flush t = true ∧ i ∈ ((cfg0.win 1).blk t).view.set := by
  have hi0 : (i 0).val < 262144 := (i 0).isLt
  have hi1 : (i 1).val < 2 := (i 1).isLt
  have hN : cfg0.N = 32 := N_0
  refine ⟨⟨(i 0).val / 8192, by rw [hN]; omega⟩, flush0_1 _, ?_⟩
  rw [stats_mem_block]
  obtain ⟨-, -, e2, e3⟩ := stats_index_facts ⟨(i 0).val / 8192, by rw [hN]; omega⟩
  intro a
  match a with
  | ⟨0, _⟩ =>
    show win0_1.index _ (0 : Fin 2) * 8192 ≤ (i 0).val ∧ (i 0).val < win0_1.index _ (0 : Fin 2) * 8192 + 8192
    rw [e2]; show (i 0).val / 8192 * 8192 ≤ (i 0).val ∧ (i 0).val < (i 0).val / 8192 * 8192 + 8192; omega
  | ⟨1, _⟩ =>
    show win0_1.index _ (1 : Fin 2) * 2 ≤ (i 1).val ∧ (i 1).val < win0_1.index _ (1 : Fin 2) * 2 + 2
    rw [e3]; omega

/-- The statistics array after the region: the row statistics of the input array as the region finds it. -/
theorem stats_array (c : Dev nD) : (dat0 V c).arrAt 1 cfg0.N = rowStats (V c main_arg0) :=
  (dat0 V c).arrAt_eq_of_cover 1 (rowStats (V c main_arg0)) (fun t _ => stats_flushed V c t) stats_cover

end

variable (m : (ℓ : Loc nD τ sig) → Buf (Elt Ideal) ℓ) (ρ : Dev nD → PrngReg)

/-- After the row-statistics region, column 0 of the statistics array holds each row's sum of the input … -/
theorem stats_sum_of (c : Dev nD) (r : Fin 262144) (X : S262144x256.Idx → EReal) (hX : X = m ((c : Thread nD τ).loc main_arg0)) :
    (W1 m ρ c (Proc.devRef .tc main_v0) : S262144x2.Idx → EReal) (ix2 r (0 : Fin 2)) = ∑ k : Fin 256, X (ix2 r k) := by
  subst hX
  have e : W1 m ρ c (Proc.devRef .tc main_v0) = rowStats (m ((c : Thread nD τ).loc main_arg0)) :=
    (W1_arr m ρ c 1).trans (stats_array (V0 m ρ) c)
  rw [e]
  exact rowStats_sum _ r

/-- … and column 1 each row's sum of squares. -/
theorem stats_sumsq_of (c : Dev nD) (r : Fin 262144) (X : S262144x256.Idx → EReal) (hX : X = m ((c : Thread nD τ).loc main_arg0)) :
    (W1 m ρ c (Proc.devRef .tc main_v0) : S262144x2.Idx → EReal) (ix2 r (1 : Fin 2)) = ∑ k : Fin 256, X (ix2 r k) * X (ix2 r k) := by
  subst hX
  have e : W1 m ρ c (Proc.devRef .tc main_v0) = rowStats (m ((c : Thread nD τ).loc main_arg0)) :=
    (W1_arr m ρ c 1).trans (stats_array (V0 m ρ) c)
  rw [e]
  exact rowStats_sumsq _ r

/-- The input array at launch on device c, as a function of the index into the extended reals. -/
abbrev launchInput (c : Dev nD) : S262144x256.Idx → EReal := m ((c : Thread nD τ).loc main_arg0)

/-- The same two, with the input array named. -/
theorem stats_sum (c : Dev nD) (r : Fin 262144) :
    (W1 m ρ c (Proc.devRef .tc main_v0) : S262144x2.Idx → EReal) (ix2 r (0 : Fin 2))
      = ∑ k : Fin 256, launchInput m c (ix2 r k) :=
  stats_sum_of m ρ c r _ rfl

theorem stats_sumsq (c : Dev nD) (r : Fin 262144) :
    (W1 m ρ c (Proc.devRef .tc main_v0) : S262144x2.Idx → EReal) (ix2 r (1 : Fin 2))
      = ∑ k : Fin 256, launchInput m c (ix2 r k) * launchInput m c (ix2 r k) :=
  stats_sumsq_of m ρ c r _ rfl

end Cert.KernelIdeal.Hand

end
-- ==== Proof.NormValue.lean ====
/-
  What the normalisation region leaves in its output array, read at an index, at the extended reals: entry (r, k) of the
  input scaled and shifted by row r's two parameters, then scaled by column k's weight and shifted by its bias. First the
  body's block, entry by entry (the two columns of the parameter block each broadcast along the rows, the two vectors each
  laid as a row and broadcast down the rows); then each grid point's blocks as bands of 8192 rows of their arrays (the two
  vectors whole at every point), the output's blocks covering its array, and so the whole array as one function of the
  four inputs.
-/
import proofs.«163727_j40578851012881_2_alg».proof.Proof.DataI
import proofs.«163727_j40578851012881_2_alg».proof.Proof.LibIndex
import proofs.«163727_j40578851012881_2_alg».proof.Proof.LibRows

set_option maxRecDepth 16384

noncomputable section

namespace Cert.KernelIdeal.Hand

open Idealize.ShloMosaic Idealize.ShloMosaic.ValueIdx Cert.KernelIdeal Cert.KernelIdeal.Gen
open Idealize.ShloMosaic.TcCoe Idealize.SL.Sem
open Idealize.ShloMosaic.Pipeline (Dat)

/-! ## The normalised block, entry by entry -/

/-- Column o of an 8192 × 2 block, cut out and broadcast along the rows, reads at (p, q) the block at (p, o). -/
theorem col_broadcast_apply (x1 : FVec Ideal S8192x2 .f32) (o : ℕ) (hc : S8192x2.ShapeCasts S8192x2)
    (hs : S8192x2.Slices ![0, o] S8192x1) (hb : S8192x1.Broadcasts S8192x256) (p : Fin 8192) (q : Fin 256)
    (k : Fin 2) (hk : k.val = o) :
    broadcastTo S8192x256 (extractStridedSlice S8192x1 ![0, o] (shapeCast S8192x2 x1 hc) hs) hb (ix2 p q) = x1 (ix2 p k) :=
  (Cert.LayoutLib.broadcastTo_col_apply _ hb p q).trans
    ((slice2_axis1_apply o _ hs p (0 : Fin 1) k (by show k.val = o + 0; omega)).trans (congrFun (shapeCast_self x1 hc) _))

/-- A vector of 256 entries laid as one row and broadcast down the rows reads at (p, q) the vector at q. -/
theorem row_broadcast_apply (w : FVec Ideal S256 .f32) (hc : S256.ShapeCasts S1x256) (hb : S1x256.Broadcasts S8192x256)
    (p : Fin 8192) (q : Fin 256) :
    broadcastTo S8192x256 (shapeCast S1x256 w hc) hb (ix2 p q) = w (ix1 q) :=
  (broadcastTo_1b_ab_apply _ hb p q).trans (shapeCast_a_1a_apply w hc (0 : Fin 1) q)

/-- The body's block at (p, q): the input entry times the row's scale plus the row's shift, times the column's weight
    plus the column's bias. -/
theorem norm_block (x0 : Vec Ideal S8192x256 .f32) (x1 : Vec Ideal S8192x2 .f32) (x2 x3 : Vec Ideal S256 .f32)
    (p : Fin 8192) (q : Fin 256) :
    (k1_pay1 x0 x1 x2 x3 : S8192x256.Idx → EReal) (ix2 p q)
      = ((x0 : S8192x256.Idx → EReal) (ix2 p q) * (x1 : S8192x2.Idx → EReal) (ix2 p (0 : Fin 2))
          + (x1 : S8192x2.Idx → EReal) (ix2 p (1 : Fin 2))) * (x2 : S256.Idx → EReal) (ix1 q)
        + (x3 : S256.Idx → EReal) (ix1 q) := by
  unfold k1_pay1
  simp only [addf_apply, mulf_apply]
  rw [col_broadcast_apply x1 0 _ _ _ p q (0 : Fin 2) rfl, col_broadcast_apply x1 1 _ _ _ p q (1 : Fin 2) rfl,
    row_broadcast_apply x2 _ _ p q, row_broadcast_apply x3 _ _ p q]

/-! ## From the blocks to the whole array -/

theorem norm_zeros2 : (![0, 0] : Fin 2 → Nat) = fun _ => 0 := funext fun a => by fin_cases a <;> rfl
theorem norm_zeros1 : (![0] : Fin 1 → Nat) = fun _ => 0 := funext fun a => by fin_cases a; rfl

/-- The normalised array: entry (r, k) of the input scaled and shifted by row r's two parameters, then scaled by column
    k's weight and shifted by its bias. -/
def normalized (X : S262144x256.Idx → EReal) (P : S262144x2.Idx → EReal) (w b : S256.Idx → EReal) :
    S262144x256.Idx → EReal := fun i =>
  (X i * P (ix2 (i 0 : Fin 262144) (0 : Fin 2)) + P (ix2 (i 0 : Fin 262144) (1 : Fin 2))) * w (ix1 (i 1 : Fin 256))
    + b (ix1 (i 1 : Fin 256))

theorem normalized_apply (X : S262144x256.Idx → EReal) (P : S262144x2.Idx → EReal) (w b : S256.Idx → EReal)
    (r : Fin 262144) (k : Fin 256) :
    normalized X P w b (ix2 r k)
      = (X (ix2 r k) * P (ix2 r (0 : Fin 2)) + P (ix2 r (1 : Fin 2))) * w (ix1 k) + b (ix1 k) := rfl

/-- The index maps of the normalisation region, decided over its 32 grid points: the input's, the parameters' and the
    output's blocks are the point's own band of rows, all columns; the two vectors are whole at every point. -/
theorem norm_index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0 ∧ win1_3.index t (0 : Fin 1) = 0
    ∧ win1_4.index t (0 : Fin 2) = t.val ∧ win1_4.index t (1 : Fin 2) = 0 :=
  (by decide +kernel : ∀ t : Fin grid1.N, _)

section
variable (V : (c : Dev nD) → (b : Ref sig .tc) → Buf (Elt Ideal) ((c : Thread nD τ).loc b))

/-- The input block at point t is rows 8192 t … 8192 t + 8191 of the input array. -/
theorem norm_input_block (c : Dev nD) (t : Fin cfg1.N) (p : Fin 8192) (k : Fin 256) (r : Fin 262144)
    (hr : r.val = t.val * 8192 + p.val) :
    (iblk1 V c 0 t : S8192x256.Idx → EReal) (ix2 p k) = (V c main_arg0 : S262144x256.Idx → EReal) (ix2 r k) := by
  obtain ⟨e0, e1, -⟩ := norm_index_facts t
  unfold iblk1
  rw [View.read_apply]
  show V c main_arg0 _ = V c main_arg0 _
  congr 1
  funext a
  apply Fin.ext
  match a with
  | ⟨0, _⟩ => show win1_0.index t 0 * 8192 + 1 * p.val = r.val; rw [e0, hr]; omega
  | ⟨1, _⟩ => show win1_0.index t 1 * 256 + 1 * k.val = k.val; rw [e1]; omega

/-- The parameter block at point t is the same band of rows of the parameter array. -/
theorem norm_param_block (c : Dev nD) (t : Fin cfg1.N) (p : Fin 8192) (k : Fin 2) (r : Fin 262144)
    (hr : r.val = t.val * 8192 + p.val) :
    (iblk1 V c 1 t : S8192x2.Idx → EReal) (ix2 p k) = (V c main_v44 : S262144x2.Idx → EReal) (ix2 r k) := by
  obtain ⟨-, -, e2, e3, -⟩ := norm_index_facts t
  unfold iblk1
  rw [View.read_apply]
  show V c main_v44 _ = V c main_v44 _
  congr 1
  funext a
  apply Fin.ext
  match a with
  | ⟨0, _⟩ => show win1_1.index t 0 * 8192 + 1 * p.val = r.val; rw [e2, hr]; omega
  | ⟨1, _⟩ => show win1_1.index t 1 * 2 + 1 * k.val = k.val; rw [e3]; omega

/-- The weight's block at every point is the whole weight vector … -/
theorem norm_weight_block (c : Dev nD) (t : Fin cfg1.N) (k : Fin 256) :
    (iblk1 V c 2 t : S256.Idx → EReal) (ix1 k) = (V c main_arg2 : S256.Idx → EReal) (ix1 k) := by
  obtain ⟨-, -, -, -, e4, -⟩ := norm_index_facts t
  unfold iblk1
  rw [View.read_apply]
  show V c main_arg2 _ = V c main_arg2 _
  congr 1
  funext a
  apply Fin.ext
  match a with
  | ⟨0, _⟩ => show win1_2.index t 0 * 256 + 1 * k.val = k.val; rw [e4]; omega

/-- … and the bias's the whole bias vector. -/
theorem norm_bias_block (c : Dev nD) (t : Fin cfg1.N) (k : Fin 256) :
    (iblk1 V c 3 t : S256.Idx → EReal) (ix1 k) = (V c main_arg3 : S256.Idx → EReal) (ix1 k) := by
  obtain ⟨-, -, -, -, -, e5, -⟩ := norm_index_facts t
  unfold iblk1
  rw [View.read_apply]
  show V c main_arg3 _ = V c main_arg3 _
  congr 1
  funext a
  apply Fin.ext
  match a with
  | ⟨0, _⟩ => show win1_3.index t 0 * 256 + 1 * k.val = k.val; rw [e5]; omega

/-- What point t writes back is its band of rows of the normalised array. -/
theorem norm_flushed (c : Dev nD) (t : Fin cfg1.N) :
    (dat1 V c).flushed 4 t = ((cfg1.win 4).blk t).view.read (Elt Ideal)
      (normalized (V c main_arg0) (V c main_v44) (V c main_arg2) (V c main_arg3)) := by
  show (cfg1.win 4).cut (grid1.coords t) ((dat1 V c).after 4 t) = _
  rw [after1_4]
  unfold out1_4
  rw [View.canon_unit_zero norm_zeros2]
  simp only [View.ld_unit_zero (S := S8192x256) norm_zeros2, View.ld_unit_zero (S := S8192x2) norm_zeros2,
    View.ld_unit_zero (S := S256) norm_zeros1]
  obtain ⟨-, -, -, -, -, -, e6, e7⟩ := norm_index_facts t
  funext j
  obtain ⟨p, q, rfl⟩ : ∃ (p : Fin 8192) (q : Fin 256), j = ix2 p q := ⟨j 0, j 1, eq_ix2 j⟩
  have ht : t.val < 32 := lt_of_lt_of_eq t.isLt N_1
  obtain ⟨r, hr⟩ : ∃ r : Fin 262144, r.val = t.val * 8192 + p.val := ⟨⟨t.val * 8192 + p.val, by omega⟩, rfl⟩
  have hemb : ((cfg1.win 4).blk t).view.emb (ix2 p q) = ix2 r q := by
    funext a
    apply Fin.ext
    match a with
    | ⟨0, _⟩ => show win1_4.index t 0 * 8192 + 1 * p.val = r.val; rw [e6, hr]; omega
    | ⟨1, _⟩ => show win1_4.index t 1 * 256 + 1 * q.val = q.val; rw [e7]; omega
  show (k1_pay1 (iblk1 V c 0 t) (iblk1 V c 1 t) (iblk1 V c 2 t) (iblk1 V c 3 t) : S8192x256.Idx → EReal) (ix2 p q)
    = normalized (V c main_arg0) (V c main_v44) (V c main_arg2) (V c main_arg3) (((cfg1.win 4).blk t).view.emb (ix2 p q))
  rw [hemb]
  refine (norm_block _ _ _ _ p q).trans ?_
  rw [normalized_apply, norm_input_block V c t p q r hr, norm_param_block V c t p 0 r hr, norm_param_block V c t p 1 r hr,
    norm_weight_block V c t q, norm_bias_block V c t q]

/-- An index of the output array is in point t's block iff each coordinate is in the block's range. -/
theorem norm_mem_block (t : Fin cfg1.N) (i : S262144x256.Idx) :
    i ∈ ((cfg1.win 4).blk t).view.set ↔ ∀ a : Fin 2, win1_4.index t a * S8192x256.size a ≤ (i a).val
      ∧ (i a).val < win1_4.index t a * S8192x256.size a + S8192x256.size a := by
  show i ∈ ((View.whole main_v45).slice (win1_4.rect t)).set ↔ _
  rw [View.set_slice_whole, Rect.mem_set_unit]
  exact Iff.rfl

/-- Every row of the output array is in the block of the point its band belongs to. -/
theorem norm_cover (i : S262144x256.Idx) :
    ∃ t : Fin cfg1.N, (cfg1.win 4).flush t = true ∧ i ∈ ((cfg1.win 4).blk t).view.set := by
  have hi0 : (i 0).val < 262144 := (i 0).isLt
  have hi1 : (i 1).val < 256 := (i 1).isLt
  have hN : cfg1.N = 32 := N_1
  refine ⟨⟨(i 0).val / 8192, by rw [hN]; omega⟩, flush1_4 _, ?_⟩
  rw [norm_mem_block]
  obtain ⟨-, -, -, -, -, -, e6, e7⟩ := norm_index_facts ⟨(i 0).val / 8192, by rw [hN]; omega⟩
  intro a
  match a with
  | ⟨0, _⟩ =>
    show win1_4.index _ (0 : Fin 2) * 8192 ≤ (i 0).val ∧ (i 0).val < win1_4.index _ (0 : Fin 2) * 8192 + 8192
    rw [e6]; show (i 0).val / 8192 * 8192 ≤ (i 0).val ∧ (i 0).val < (i 0).val / 8192 * 8192 + 8192; omega
  | ⟨1, _⟩ =>
    show win1_4.index _ (1 : Fin 2) * 256 ≤ (i 1).val ∧ (i 1).val < win1_4.index _ (1 : Fin 2) * 256 + 256
    rw [e7]; omega

/-- The output array after the region: the normalised array of the four inputs as the region finds them. -/
theorem norm_array (c : Dev nD) :
    (dat1 V c).arrAt 4 cfg1.N = normalized (V c main_arg0) (V c main_v44) (V c main_arg2) (V c main_arg3) :=
  (dat1 V c).arrAt_eq_of_cover 4 (normalized (V c main_arg0) (V c main_v44) (V c main_arg2) (V c main_arg3))
    (fun t _ => norm_flushed V c t) norm_cover

end

variable (m : (ℓ : Loc nD τ sig) → Buf (Elt Ideal) ℓ) (ρ : Dev nD → PrngReg)

/-- After the normalisation region, entry (r, k) of the output array is the input's entry scaled and shifted by row r's
    parameters, then by column k's weight and bias, all four read as the region finds them. -/
theorem norm_out_of (c : Dev nD) (r : Fin 262144) (k : Fin 256)
    (X : S262144x256.Idx → EReal) (P : S262144x2.Idx → EReal) (w b : S256.Idx → EReal)
    (hX : X = V4 m ρ c main_arg0) (hP : P = V4 m ρ c main_v44) (hw : w = V4 m ρ c main_arg2) (hb : b = V4 m ρ c main_arg3) :
    (W5 m ρ c (Proc.devRef .tc main_v45) : S262144x256.Idx → EReal) (ix2 r k)
      = (X (ix2 r k) * P (ix2 r (0 : Fin 2)) + P (ix2 r (1 : Fin 2))) * w (ix1 k) + b (ix1 k) := by
  subst hX hP hw hb
  have e : W5 m ρ c (Proc.devRef .tc main_v45)
      = normalized (V4 m ρ c main_arg0) (V4 m ρ c main_v44) (V4 m ρ c main_arg2) (V4 m ρ c main_arg3) :=
    (W5_arr m ρ c 4).trans (norm_array (V4 m ρ) c)
  rw [e]
  exact normalized_apply _ _ _ _ r k

/-- The four inputs of the normalisation region as it finds them on device c, as functions into the extended reals. -/
abbrev normInput (c : Dev nD) : S262144x256.Idx → EReal := V4 m ρ c main_arg0
abbrev normParams (c : Dev nD) : S262144x2.Idx → EReal := V4 m ρ c main_v44
abbrev normWeight (c : Dev nD) : S256.Idx → EReal := V4 m ρ c main_arg2
abbrev normBias (c : Dev nD) : S256.Idx → EReal := V4 m ρ c main_arg3

/-- The same, with the four inputs named. -/
theorem norm_out (c : Dev nD) (r : Fin 262144) (k : Fin 256) :
    (W5 m ρ c (Proc.devRef .tc main_v45) : S262144x256.Idx → EReal) (ix2 r k)
      = (normInput m ρ c (ix2 r k) * normParams m ρ c (ix2 r (0 : Fin 2)) + normParams m ρ c (ix2 r (1 : Fin 2)))
          * normWeight m ρ c (ix1 k) + normBias m ρ c (ix1 k) :=
  norm_out_of m ρ c r k _ _ _ _ rfl rfl rfl rfl

end Cert.KernelIdeal.Hand

end
-- ==== Proof.HostStages.lean ====
/-
  The host operations between the two regions, as functions of the arrays they read: the rows packed as one, a row's sum
  and a row's sum of squares; the per-graph sums of the packed rows; the three columns of those sums; the count clamped
  from below by one; the divisor, mean, variance, scale and shift of each graph; the table of scale and shift gathered
  to the rows at their graph ids. Then each buffer the second region reads, after the three stretches of operations, is
  the composite of these functions over what the first region left.
-/
import proofs.«163727_j40578851012881_2_alg».proof.Proof.DataI
import proofs.«163727_j40578851012881_2_alg».proof.Proof.Gen.KernelIdeal.Regions
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe
open Cert.KernelIdeal Cert.KernelIdeal.Gen

/-! ## The host stages as functions of the arrays they read -/

/-- A column of the word for one. -/
def onesCol : FVec Ideal S262144x1 .f32 :=
  broadcastInDim S262144x1 ![0] bcast_S262144_S262144x1_0
    (broadcastInDim S262144 ![] bcast_S_S262144 (constant (F := Ideal) S_ .f32 0x3F800000#32))

/-- The first column of the row statistics (a row's sum), cut out, flattened and stood up as a column again. -/
def statCol0 (x0 : FVec Ideal S262144x2 .f32) : FVec Ideal S262144x1 .f32 :=
  broadcastInDim S262144x1 ![0] bcast_S262144_S262144x1_0
    (shapeCast S262144 (extractStridedSlice S262144x1 ![0, 0] x0 slices_S262144x2_S262144x1_0_0) shapeCasts_S262144x1_S262144)

/-- The second column of the row statistics (a row's sum of squares), likewise. -/
def statCol1 (x0 : FVec Ideal S262144x2 .f32) : FVec Ideal S262144x1 .f32 :=
  broadcastInDim S262144x1 ![0] bcast_S262144_S262144x1_0
    (shapeCast S262144 (extractStridedSlice S262144x1 ![0, 1] x0 slices_S262144x2_S262144x1_0_1) shapeCasts_S262144x1_S262144)

/-- The packed rows: one, the row's sum, the row's sum of squares. -/
def packed (x0 : FVec Ideal S262144x2 .f32) : FVec Ideal S262144x3 .f32 :=
  concatenate S262144x3 1 [⟨S262144x1, onesCol⟩, ⟨S262144x1, statCol0 x0⟩, ⟨S262144x1, statCol1 x0⟩]
    concatenates_S262144x1_S262144x1_S262144x1_S262144x3_d1

/-- The graph ids stood up as a column of start indices. -/
def idCol (bt : IVec S262144 32) : IVec S262144x1 32 :=
  broadcastInDim S262144x1 ![0] bcast_S262144_S262144x1_0 bt

/-- The per-graph sums of the packed rows: a table of zero words to which each packed row is added at its graph. -/
def segSums (x0 : FVec Ideal S262144x2 .f32) (bt : IVec S262144 32) : FVec Ideal S1024x3 .f32 :=
  Host.scatterAdd (F := Ideal) (φ := .f32) scatter_S1024x3_S262144x1_S262144x3_1_0_0_1
    (broadcastInDim S1024x3 ![] bcast_S_S1024x3 (constant (F := Ideal) S_ .f32 0x00000000#32)) (idCol bt) (packed x0)

/-- The three columns of the per-graph sums, each cut out and flattened: counts, sums, sums of squares. -/
def segCol0 (g : FVec Ideal S1024x3 .f32) : FVec Ideal S1024 .f32 :=
  shapeCast S1024 (extractStridedSlice S1024x1 ![0, 0] g slices_S1024x3_S1024x1_0_0) shapeCasts_S1024x1_S1024
def segCol1 (g : FVec Ideal S1024x3 .f32) : FVec Ideal S1024 .f32 :=
  shapeCast S1024 (extractStridedSlice S1024x1 ![0, 1] g slices_S1024x3_S1024x1_0_1) shapeCasts_S1024x1_S1024
def segCol2 (g : FVec Ideal S1024x3 .f32) : FVec Ideal S1024 .f32 :=
  shapeCast S1024 (extractStridedSlice S1024x1 ![0, 2] g slices_S1024x3_S1024x1_0_2) shapeCasts_S1024x1_S1024

/-- The counts clamped from below by the word handed over as one. -/
def clampDeg (one0 : FVec Ideal S_ .f32) (deg : FVec Ideal S1024 .f32) : FVec Ideal S1024 .f32 :=
  maximumf (broadcastInDim S1024 ![] bcast_S_S1024 one0) deg

/-- The divisor: the clamped count times the word for the number of columns. -/
def nrmV (d : FVec Ideal S1024 .f32) : FVec Ideal S1024 .f32 :=
  mulf d (broadcastInDim S1024 ![] bcast_S_S1024 (constant (F := Ideal) S_ .f32 0x43800000#32))
/-- The mean: the sum over the divisor. -/
def meanV (s d : FVec Ideal S1024 .f32) : FVec Ideal S1024 .f32 := Host.divf s (nrmV d)
/-- The variance: the mean square less the squared mean, clamped from below by the zero word. -/
def varV (s q d : FVec Ideal S1024 .f32) : FVec Ideal S1024 .f32 :=
  maximumf (subf (Host.divf q (nrmV d)) (mulf (meanV s d) (meanV s d)))
    (broadcastInDim S1024 ![] bcast_S_S1024 (constant (F := Ideal) S_ .f32 0x00000000#32))
/-- The scale: one over the root of the variance plus the small word. -/
def invV (s q d : FVec Ideal S1024 .f32) : FVec Ideal S1024 .f32 :=
  Host.divf (broadcastInDim S1024 ![] bcast_S_S1024 (constant (F := Ideal) S_ .f32 0x3F800000#32))
    (addf (Host.sqrt (varV s q d)) (broadcastInDim S1024 ![] bcast_S_S1024 (constant (F := Ideal) S_ .f32 0x3727C5AC#32)))
/-- The shift: the negated mean times the scale. -/
def shiftV (s q d : FVec Ideal S1024 .f32) : FVec Ideal S1024 .f32 := mulf (Host.negf (meanV s d)) (invV s q d)
/-- A per-graph table: a scale and a shift, each stood up as a column, side by side. -/
def tableOf (inv shift : FVec Ideal S1024 .f32) : FVec Ideal S1024x2 .f32 :=
  concatenate S1024x2 1 [⟨S1024x1, broadcastInDim S1024x1 ![0] bcast_S1024_S1024x1_0 inv⟩,
    ⟨S1024x1, broadcastInDim S1024x1 ![0] bcast_S1024_S1024x1_0 shift⟩] concatenates_S1024x1_S1024x1_S1024x2_d1
/-- The graph ids with a negative one raised once by the number of graphs. -/
def wrapV (bt : IVec S262144 32) : IVec S262144 32 :=
  select (cmpi .slt bt (broadcastInDim S262144 ![] bcast_S_S262144 (constantI S_ 32 0#32)))
    (addi bt (broadcastInDim S262144 ![] bcast_S_S262144 (constantI S_ 32 1024#32))) bt
/-- The per-row parameters from a scale and a mean: the table of the scale and of the negated mean times the scale,
    its rows gathered at the wrapped ids. -/
def paramsOf (inv mean : FVec Ideal S1024 .f32) (bt : IVec S262144 32) : FVec Ideal S262144x2 .f32 :=
  Host.gather gather_S1024x2_S262144x1_S262144x2_1_0_n_n_0_1_12 (tableOf inv (mulf (Host.negf mean) inv))
    (broadcastInDim S262144x1 ![0] bcast_S262144_S262144x1_0 (wrapV bt))
/-- The per-row parameters from the per-graph sums, sums of squares and clamped counts. -/
def paramsV (s q d : FVec Ideal S1024 .f32) (bt : IVec S262144 32) : FVec Ideal S262144x2 .f32 :=
  paramsOf (invV s q d) (meanV s d) bt

/-! ## The buffers after each stretch -/

/-- A line of operations run in two parts. -/
theorem after_split (k : ℕ) (ops : List (HloOp τ sig (Elt Ideal))) (V : Valuation τ sig (Elt Ideal)) :
    StableHlo.after ops V = StableHlo.after (ops.drop k) (StableHlo.after (ops.take k) V) := by
  rw [← StableHlo.after_append, List.take_append_drop]

/-- An operation of three operands at its result: its function of the three operands' contents. -/
theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- Reads a buffer after a line of operations: at its own result an operation's function of its operands, elsewhere
    what was there before. -/
macro "host_results" : tactic =>
  `(tactic| repeat (first
      | rw [StableHlo.nullary_result] | rw [StableHlo.unary_result] | rw [StableHlo.binary_result] | rw [StableHlo.ternary_result]
      | rw [StableHlo.reshape_result] | rw [nary3_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)
      | (rw [StableHlo.nary_result_ne]; rotate_left; decide)))

section Lines
variable (F : Valuation τ sig (Elt Ideal))

/-- After the first fourteen operations of the first stretch the per-graph sums are in place. -/
theorem head1_v12 :
    @Eq (FVec Ideal S1024x3 .f32) (StableHlo.after ((hostOps1 (F := Ideal)).take 14) F (Proc.devRef .tc main_v12))
      (segSums (F (Proc.devRef .tc main_v0)) (F (Proc.devRef .tc main_arg1))) := by
  simp only [hostOps1, List.take_succ_cons, List.take_zero, StableHlo.after_cons, StableHlo.after_nil]
  host_results
  rfl
/-- The rest of the first stretch cuts the three columns out and writes the word for one. -/
theorem tail1_v14 :
    @Eq (FVec Ideal S1024 .f32) (StableHlo.after ((hostOps1 (F := Ideal)).drop 14) F (Proc.devRef .tc main_v14))
      (segCol0 (F (Proc.devRef .tc main_v12))) := by
  simp only [hostOps1, List.drop_succ_cons, List.drop_zero, StableHlo.after_cons, StableHlo.after_nil]
  host_results
  rfl
theorem tail1_v16 :
    @Eq (FVec Ideal S1024 .f32) (StableHlo.after ((hostOps1 (F := Ideal)).drop 14) F (Proc.devRef .tc main_v16))
      (segCol1 (F (Proc.devRef .tc main_v12))) := by
  simp only [hostOps1, List.drop_succ_cons, List.drop_zero, StableHlo.after_cons, StableHlo.after_nil]
  host_results
  rfl
theorem tail1_v18 :
    @Eq (FVec Ideal S1024 .f32) (StableHlo.after ((hostOps1 (F := Ideal)).drop 14) F (Proc.devRef .tc main_v18))
      (segCol2 (F (Proc.devRef .tc main_v12))) := by
  simp only [hostOps1, List.drop_succ_cons, List.drop_zero, StableHlo.after_cons, StableHlo.after_nil]
  host_results
  rfl
theorem tail1_cst_1 :
    @Eq (FVec Ideal S_ .f32) (StableHlo.after ((hostOps1 (F := Ideal)).drop 14) F (Proc.devRef .tc main_cst_1))
      (constant (F := Ideal) S_ .f32 0x3F800000#32) := by
  simp only [hostOps1, List.drop_succ_cons, List.drop_zero, StableHlo.after_cons, StableHlo.after_nil]
  host_results

/-- The whole first stretch. -/
theorem line1_v14 :
    @Eq (FVec Ideal S1024 .f32) (StableHlo.after (hostOps1 (F := Ideal)) F (Proc.devRef .tc main_v14))
      (segCol0 (segSums (F (Proc.devRef .tc main_v0)) (F (Proc.devRef .tc main_arg1)))) := by
  rw [after_split 14]
  exact (tail1_v14 _).trans (congrArg segCol0 (head1_v12 F))
theorem line1_v16 :
    @Eq (FVec Ideal S1024 .f32) (StableHlo.after (hostOps1 (F := Ideal)) F (Proc.devRef .tc main_v16))
      (segCol1 (segSums (F (Proc.devRef .tc main_v0)) (F (Proc.devRef .tc main_arg1)))) := by
  rw [after_split 14]
  exact (tail1_v16 _).trans (congrArg segCol1 (head1_v12 F))
theorem line1_v18 :
    @Eq (FVec Ideal S1024 .f32) (StableHlo.after (hostOps1 (F := Ideal)) F (Proc.devRef .tc main_v18))
      (segCol2 (segSums (F (Proc.devRef .tc main_v0)) (F (Proc.devRef .tc main_arg1)))) := by
  rw [after_split 14]
  exact (tail1_v18 _).trans (congrArg segCol2 (head1_v12 F))
theorem line1_cst_1 :
    @Eq (FVec Ideal S_ .f32) (StableHlo.after (hostOps1 (F := Ideal)) F (Proc.devRef .tc main_cst_1))
      (constant (F := Ideal) S_ .f32 0x3F800000#32) := by
  rw [after_split 14]
  exact tail1_cst_1 _

/-- The second stretch clamps the counts. -/
theorem line2_v19 :
    @Eq (FVec Ideal S1024 .f32) (StableHlo.after (hostOps1_1 (F := Ideal)) F (Proc.devRef .tc main_v19))
      (clampDeg (F (Proc.devRef .tc main_cst_1)) (F (Proc.devRef .tc main_v14))) := by
  simp only [hostOps1_1, StableHlo.after_cons, StableHlo.after_nil]
  host_results
  rfl
/-- After the first seventeen operations of the third stretch the mean and the scale are in place, the ids untouched. -/
theorem head3_v22 :
    @Eq (FVec Ideal S1024 .f32) (StableHlo.after ((hostOps1_2 (F := Ideal)).take 17) F (Proc.devRef .tc main_v22))
      (meanV (F (Proc.devRef .tc main_v16)) (F (Proc.devRef .tc main_v19))) := by
  simp only [hostOps1_2, List.take_succ_cons, List.take_zero, StableHlo.after_cons, StableHlo.after_nil]
  host_results
  rfl
theorem head3_v32 :
    @Eq (FVec Ideal S1024 .f32) (StableHlo.after ((hostOps1_2 (F := Ideal)).take 17) F (Proc.devRef .tc main_v32))
      (invV (F (Proc.devRef .tc main_v16)) (F (Proc.devRef .tc main_v18)) (F (Proc.devRef .tc main_v19))) := by
  simp only [hostOps1_2, List.take_succ_cons, List.take_zero, StableHlo.after_cons, StableHlo.after_nil]
  host_results
  rfl
theorem head3_arg1 :
    @Eq (IVec S262144 32) (StableHlo.after ((hostOps1_2 (F := Ideal)).take 17) F (Proc.devRef .tc main_arg1))
      (F (Proc.devRef .tc main_arg1)) := by
  simp only [hostOps1_2, List.take_succ_cons, List.take_zero, StableHlo.after_cons, StableHlo.after_nil]
  host_results
/-- The rest of the third stretch builds the table and gathers it to the rows. -/
theorem tail3_v44 :
    @Eq (FVec Ideal S262144x2 .f32) (StableHlo.after ((hostOps1_2 (F := Ideal)).drop 17) F (Proc.devRef .tc main_v44))
      (paramsOf (F (Proc.devRef .tc main_v32)) (F (Proc.devRef .tc main_v22)) (F (Proc.devRef .tc main_arg1))) := by
  simp only [hostOps1_2, List.drop_succ_cons, List.drop_zero, StableHlo.after_cons, StableHlo.after_nil]
  host_results
  rfl

/-- The whole third stretch. -/
theorem line3_v44 :
    @Eq (FVec Ideal S262144x2 .f32) (StableHlo.after (hostOps1_2 (F := Ideal)) F (Proc.devRef .tc main_v44))
      (paramsV (F (Proc.devRef .tc main_v16)) (F (Proc.devRef .tc main_v18)) (F (Proc.devRef .tc main_v19))
        (F (Proc.devRef .tc main_arg1))) := by
  rw [after_split 17]
  refine (tail3_v44 _).trans ?_
  rw [head3_v32 F, head3_v22 F, head3_arg1 F]
  rfl

end Lines

end Cert.KernelIdeal.Hand

end
-- ==== Proof.Spec.lean ====
/-
  Per-graph normalisation of node features, two ways, over abstract finite index types: rows (nodes) `ι`, columns
  (channels) `κ`, graphs `β`. A relation `s r b` says row `r` is summed into graph `b` (each row into at most the
  graph `g r` it later reads its statistics from).

  The one-pass form keeps, per graph, the sum `S` and the sum of squares `Q` of its entries, the count `n` of its rows
  and `N = max 1 n · |κ|`; mean `μ = S / N`, variance `max (Q / N − μ²) 0`, and writes each entry as
  `x · i + (−μ · i)` with `i = 1 / (√variance + ε)`. The two-pass form centres first, `x − μ`, takes the variance as the
  sum of the centred squares over `N`, and divides by `√variance + ε`.

  Over the reals they agree: for a graph with a row, `N = n · |κ|` is the number of its entries, so
  `∑ (x − μ)² = Q − 2 μ S + N μ² = Q − N μ²`, a non-negative number, and the clamp at zero is idle; for a graph without
  rows every sum is empty and both variances are zero. The second half states both forms over the extended reals
  with the operations as the programs spell them (a quotient is `Ideal.div`, a root `Ideal.sqrt`, every sum starts
  from a zero word) and shows each stage to be the coercion of its real twin when the inputs are finite.
-/
import Idealize.ShloMosaic.PureOps.Ideal
import Idealize.ShloMosaic.PureOps.Ideal.Laws

noncomputable section

namespace Cert.GraphNorm

open Idealize.ShloMosaic

variable {ι κ β : Type} [Fintype ι] [Fintype κ]

/-! ## Over the reals -/

section Reals

variable (s : ι → β → Prop) [∀ r b, Decidable (s r b)] (g : ι → β)
variable (x : ι → κ → ℝ) (w bias : κ → ℝ) (e : ℝ)

/-- The rows of graph `b`. -/
abbrev rowsOf (b : β) : Finset ι := Finset.univ.filter fun r => s r b

/-- The number of rows of a graph, and the divisor: the number of its entries, a rowless graph counted as one row. -/
def cnt (b : β) : ℝ := ∑ _r ∈ rowsOf s b, (1 : ℝ)
def nrm (b : β) : ℝ := max 1 (cnt s b) * (Fintype.card κ : ℝ)

/-- One pass: sums of the entries and of their squares, row by row. -/
def sumK (b : β) : ℝ := ∑ r ∈ rowsOf s b, ∑ k, x r k
def sqK (b : β) : ℝ := ∑ r ∈ rowsOf s b, ∑ k, x r k * x r k
def meanK (b : β) : ℝ := sumK s x b / nrm (κ := κ) s b
def varK (b : β) : ℝ := max (sqK s x b / nrm (κ := κ) s b - meanK s x b * meanK s x b) 0
def invK (b : β) : ℝ := 1 / (Real.sqrt (varK s x b) + e)
def outK (r : ι) (c : κ) : ℝ :=
  (x r c * invK s x e (g r) + (-(meanK s x (g r))) * invK s x e (g r)) * w c + bias c

/-- Two passes: the sum column by column, the centred entries, the sum of their squares. -/
def sumR (b : β) : ℝ := ∑ k, ∑ r ∈ rowsOf s b, x r k
def meanR (b : β) : ℝ := sumR s x b / nrm (κ := κ) s b
def xc (r : ι) (k : κ) : ℝ := x r k - meanR s x (g r)
def sqR (b : β) : ℝ := ∑ k, ∑ r ∈ rowsOf s b, xc s g x r k * xc s g x r k
def varR (b : β) : ℝ := sqR s g x b / nrm (κ := κ) s b
def outR (r : ι) (c : κ) : ℝ :=
  xc s g x r c / (Real.sqrt (varR s g x (g r)) + e) * w c + bias c

theorem cnt_eq_card (b : β) : cnt s b = ((rowsOf s b).card : ℝ) := by
  unfold cnt; rw [Finset.sum_const, nsmul_eq_mul, mul_one]

theorem nrm_pos (hκ : 0 < Fintype.card κ) (b : β) : 0 < nrm (κ := κ) s b := by
  unfold nrm
  have h1 : (0 : ℝ) < max 1 (cnt s b) := lt_of_lt_of_le one_pos (le_max_left _ _)
  have h2 : (0 : ℝ) < (Fintype.card κ : ℝ) := by exact_mod_cast hκ
  exact mul_pos h1 h2

theorem sumR_eq_sumK (b : β) : sumR s x b = sumK s x b := by
  unfold sumR sumK; exact Finset.sum_comm

theorem meanR_eq_meanK (b : β) : meanR s x b = meanK s x b := by
  unfold meanR meanK; rw [sumR_eq_sumK]

/-- The sum of the centred squares of a graph, rows outermost, centred at the graph's own mean. -/
theorem sqR_rows (hg : ∀ r b, s r b → g r = b) (b : β) :
    sqR s g x b = ∑ r ∈ rowsOf s b, ∑ k, (x r k - meanK s x b) * (x r k - meanK s x b) := by
  unfold sqR
  rw [Finset.sum_comm]
  refine Finset.sum_congr rfl fun r hr => Finset.sum_congr rfl fun k _ => ?_
  have hb : g r = b := hg r b (Finset.mem_filter.mp hr).2
  unfold xc; rw [hb, meanR_eq_meanK]

/-- THE VARIANCE IDENTITY: the centred second moment is the raw second moment less the squared mean, clamped or not. -/
theorem varR_eq_varK (hκ : 0 < Fintype.card κ) (hg : ∀ r b, s r b → g r = b) (b : β) :
    varR s g x b = varK s x b := by
  have hN := nrm_pos (κ := κ) s hκ b
  have hexp : sqR s g x b = sqK s x b - 2 * meanK s x b * sumK s x b
      + meanK s x b * meanK s x b * (cnt s b * (Fintype.card κ : ℝ)) := by
    rw [sqR_rows s g x hg b]
    unfold sqK sumK cnt
    have : ∀ r, ∑ k, (x r k - meanK s x b) * (x r k - meanK s x b)
        = ∑ k, x r k * x r k - 2 * meanK s x b * ∑ k, x r k + meanK s x b * meanK s x b * (Fintype.card κ : ℝ) := by
      intro r
      have h0 : ∀ k, (x r k - meanK s x b) * (x r k - meanK s x b)
          = x r k * x r k - 2 * meanK s x b * x r k + meanK s x b * meanK s x b := fun k => by ring
      simp only [h0, Finset.sum_add_distrib, Finset.sum_sub_distrib, ← Finset.mul_sum, Finset.sum_const,
        Finset.card_univ, nsmul_eq_mul]
      ring
    simp only [this, Finset.sum_add_distrib, Finset.sum_sub_distrib, ← Finset.mul_sum, Finset.sum_const,
      nsmul_eq_mul, mul_one]
  by_cases hem : rowsOf s b = ∅
  · -- a graph without rows: every sum is empty
    have hsq : sqR s g x b = 0 := by rw [sqR_rows s g x hg b, hem, Finset.sum_empty]
    have hS : sumK s x b = 0 := by unfold sumK; rw [hem, Finset.sum_empty]
    have hQ : sqK s x b = 0 := by unfold sqK; rw [hem, Finset.sum_empty]
    unfold varR varK meanK
    rw [hsq, hS, hQ]; simp
  · -- a graph with a row: the divisor is the number of its entries
    have hc : (1 : ℝ) ≤ cnt s b := by
      rw [cnt_eq_card]
      have : 0 < (rowsOf s b).card := Finset.card_pos.mpr (Finset.nonempty_iff_ne_empty.mpr hem)
      exact_mod_cast this
    have hnrm : nrm (κ := κ) s b = cnt s b * (Fintype.card κ : ℝ) := by unfold nrm; rw [max_eq_right hc]
    have hS : sumK s x b = meanK s x b * nrm (κ := κ) s b := by
      unfold meanK; field_simp
    have hval : varR s g x b = sqK s x b / nrm (κ := κ) s b - meanK s x b * meanK s x b := by
      unfold varR
      rw [hexp, ← hnrm, hS]
      field_simp
      ring
    have hnn : 0 ≤ varR s g x b := by
      unfold varR
      refine div_nonneg ?_ hN.le
      rw [sqR_rows s g x hg b]
      exact Finset.sum_nonneg fun r _ => Finset.sum_nonneg fun k _ => mul_self_nonneg _
    unfold varK
    rw [← hval, max_eq_left hnn]

/-- THE TWO FORMS AGREE over the reals. -/
theorem outK_eq_outR (hκ : 0 < Fintype.card κ) (hg : ∀ r b, s r b → g r = b) (he : 0 < e) (r : ι) (c : κ) :
    outK s g x w bias e r c = outR s g x w bias e r c := by
  unfold outK outR invK xc
  rw [varR_eq_varK s g x hκ hg, meanR_eq_meanK]
  have hpos : 0 < Real.sqrt (varK s x (g r)) + e := add_pos_of_nonneg_of_pos (Real.sqrt_nonneg _) he
  field_simp
  ring

end Reals

end Cert.GraphNorm

end
-- ==== Proof.SpecE.lean ====
/-
  The two forms of the per-graph normalisation over the EXTENDED reals, stage by stage as the programs spell them:
  every sum starts from a zero word, a quotient is `Ideal.div`, a root is `Ideal.sqrt`, the count of a graph's rows is
  a sum of the word for one, the divisor's second factor is the word for the number of columns. When the inputs are
  real numbers and the four words denote `0`, `1`, `|κ|` and a positive `ε`, each stage is the coercion of its real
  twin (no divisor is zero, no root is taken of a negative number), so the two forms agree on the extended reals too.
-/
import proofs.«163727_j40578851012881_2_alg».proof.Proof.Spec

noncomputable section

namespace Cert.GraphNorm

open Idealize.ShloMosaic

variable {ι κ β : Type} [Fintype ι] [Fintype κ]

/-- A finite sum of real numbers, coerced term by term, is the coercion of the sum. -/
theorem coe_sum {α : Type} (t : Finset α) (f : α → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-- A quotient of real numbers by a non-zero real. -/
theorem div_coe_coe (a : ℝ) {r : ℝ} (h : r ≠ 0) : Ideal.div (a : EReal) (r : EReal) = ((a / r : ℝ) : EReal) := by
  rw [Ideal.div_coe h, ← EReal.coe_mul, mul_one_div]

/-- The root of a non-negative real. -/
theorem sqrt_coe_nonneg {a : ℝ} (h : 0 ≤ a) : Ideal.sqrt (a : EReal) = ((Real.sqrt a : ℝ) : EReal) := by
  rw [Ideal.sqrt_coe, if_neg (not_lt.mpr h)]

theorem max_coe (a b : ℝ) : max (a : EReal) (b : EReal) = ((max a b : ℝ) : EReal) :=
  (EReal.coe_strictMono.monotone.map_max).symm

section Ext

variable (s : ι → β → Prop) [∀ r b, Decidable (s r b)] (g : ι → β)
variable (zero one cols eps : EReal) (rs rq : ι → EReal) (X : ι → κ → EReal) (W B : κ → EReal)

/-- The count of a graph's rows and the divisor. -/
def degE (b : β) : EReal := zero + ∑ _r ∈ rowsOf s b, one
def normE (b : β) : EReal := max one (degE s zero one b) * cols

/-- One pass, over a row's sum `rs r` and sum of squares `rq r` as given. -/
def sumKE (b : β) : EReal := zero + ∑ r ∈ rowsOf s b, rs r
def sqKE (b : β) : EReal := zero + ∑ r ∈ rowsOf s b, rq r
def meanKE (b : β) : EReal := Ideal.div (sumKE s zero rs b) (normE s zero one cols b)
def varKE (b : β) : EReal :=
  max (Ideal.div (sqKE s zero rq b) (normE s zero one cols b) - meanKE s zero one cols rs b * meanKE s zero one cols rs b) zero
def invKE (b : β) : EReal := Ideal.div one (Ideal.sqrt (varKE s zero one cols rs rq b) + eps)
def shiftKE (b : β) : EReal := (-(meanKE s zero one cols rs b)) * invKE s zero one cols eps rs rq b
def outKE (r : ι) (c : κ) : EReal :=
  (X r c * invKE s zero one cols eps rs rq (g r) + shiftKE s zero one cols eps rs rq (g r)) * W c + B c

/-- Two passes. -/
def sumRE (b : β) : EReal := zero + ∑ k, (zero + ∑ r ∈ rowsOf s b, X r k)
def meanRE (b : β) : EReal := Ideal.div (sumRE s zero X b) (normE s zero one cols b)
def xcE (r : ι) (k : κ) : EReal := X r k - meanRE s zero one cols X (g r)
def sqRE (b : β) : EReal :=
  zero + ∑ k, (zero + ∑ r ∈ rowsOf s b, xcE s g zero one cols X r k * xcE s g zero one cols X r k)
def varRE (b : β) : EReal := Ideal.div (sqRE s g zero one cols X b) (normE s zero one cols b)
def outRE (r : ι) (c : κ) : EReal :=
  Ideal.div (xcE s g zero one cols X r c) (Ideal.sqrt (varRE s g zero one cols X (g r)) + eps) * W c + B c

variable (x : ι → κ → ℝ) (w bias : κ → ℝ) (e : ℝ)
variable (hz : zero = 0) (h1 : one = 1) (hc : cols = ((Fintype.card κ : ℝ) : EReal)) (he : eps = (e : EReal))
variable (hX : ∀ r k, X r k = (x r k : EReal)) (hW : ∀ k, W k = (w k : EReal)) (hB : ∀ k, B k = (bias k : EReal))
variable (hrs : ∀ r, rs r = ∑ k, X r k) (hrq : ∀ r, rq r = ∑ k, X r k * X r k)

include hz h1 in
theorem degE_coe (b : β) : degE s zero one b = ((cnt s b : ℝ) : EReal) := by
  unfold degE cnt
  rw [hz, h1, zero_add, ← EReal.coe_one, coe_sum]

include hz h1 hc in
theorem normE_coe (b : β) : normE s zero one cols b = ((nrm (κ := κ) s b : ℝ) : EReal) := by
  unfold normE nrm
  rw [degE_coe s zero one hz h1, h1, hc, ← EReal.coe_one, max_coe, ← EReal.coe_mul]

include hz hX hrs in
theorem sumKE_coe (b : β) : sumKE s zero rs b = ((sumK s x b : ℝ) : EReal) := by
  unfold sumKE sumK
  rw [hz, zero_add]
  simp only [hrs, hX, coe_sum]

include hz hX hrq in
theorem sqKE_coe (b : β) : sqKE s zero rq b = ((sqK s x b : ℝ) : EReal) := by
  unfold sqKE sqK
  rw [hz, zero_add]
  simp only [hrq, hX, ← EReal.coe_mul, coe_sum]

include hz hX in
theorem sumRE_coe (b : β) : sumRE s zero X b = ((sumR s x b : ℝ) : EReal) := by
  unfold sumRE sumR
  rw [hz]
  simp only [zero_add, hX, coe_sum]

variable (hκ : 0 < Fintype.card κ)

include hz h1 hc hX hrs hκ in
theorem meanKE_coe (b : β) : meanKE s zero one cols rs b = ((meanK s x b : ℝ) : EReal) := by
  unfold meanKE meanK
  rw [sumKE_coe s zero rs X x hz hX hrs, normE_coe s zero one cols hz h1 hc, div_coe_coe _ (nrm_pos s hκ b).ne']

include hz h1 hc hX hκ in
theorem meanRE_coe (b : β) : meanRE s zero one cols X b = ((meanR s x b : ℝ) : EReal) := by
  unfold meanRE meanR
  rw [sumRE_coe s zero X x hz hX, normE_coe s zero one cols hz h1 hc, div_coe_coe _ (nrm_pos s hκ b).ne']

include hz h1 hc hX hrs hrq hκ in
theorem varKE_coe (b : β) : varKE s zero one cols rs rq b = ((varK s x b : ℝ) : EReal) := by
  unfold varKE varK
  rw [sqKE_coe s zero rq X x hz hX hrq, normE_coe s zero one cols hz h1 hc, div_coe_coe _ (nrm_pos s hκ b).ne',
    meanKE_coe s zero one cols rs X x hz h1 hc hX hrs hκ, ← EReal.coe_mul, ← EReal.coe_sub, hz, ← EReal.coe_zero, max_coe]

include hz h1 hc he hX hrs hrq hκ in
theorem invKE_coe (he0 : 0 < e) (b : β) : invKE s zero one cols eps rs rq b = ((invK s x e b : ℝ) : EReal) := by
  unfold invKE invK
  have hv : 0 ≤ varK s x b := le_max_right _ _
  have hpos : 0 < Real.sqrt (varK s x b) + e := add_pos_of_nonneg_of_pos (Real.sqrt_nonneg _) he0
  rw [varKE_coe s zero one cols rs rq X x hz h1 hc hX hrs hrq hκ, sqrt_coe_nonneg hv, he, ← EReal.coe_add, h1, ← EReal.coe_one,
    div_coe_coe _ hpos.ne']

include hz h1 hc he hX hW hB hrs hrq hκ in
theorem outKE_coe (he0 : 0 < e) (r : ι) (c : κ) :
    outKE s g zero one cols eps rs rq X W B r c = ((outK s g x w bias e r c : ℝ) : EReal) := by
  unfold outKE outK shiftKE
  rw [invKE_coe s zero one cols eps rs rq X x e hz h1 hc he hX hrs hrq hκ he0, meanKE_coe s zero one cols rs X x hz h1 hc hX hrs hκ,
    hX, hW, hB, ← EReal.coe_neg, ← EReal.coe_mul, ← EReal.coe_mul, ← EReal.coe_add, ← EReal.coe_mul, ← EReal.coe_add]

include hz h1 hc hX hκ in
theorem xcE_coe (r : ι) (k : κ) : xcE s g zero one cols X r k = ((xc s g x r k : ℝ) : EReal) := by
  unfold xcE xc
  rw [hX, meanRE_coe s zero one cols X x hz h1 hc hX hκ, ← EReal.coe_sub]

include hz h1 hc hX hκ in
theorem sqRE_coe (b : β) : sqRE s g zero one cols X b = ((sqR s g x b : ℝ) : EReal) := by
  unfold sqRE sqR
  simp only [xcE_coe s g zero one cols X x hz h1 hc hX hκ, ← EReal.coe_mul]
  rw [hz]
  simp only [zero_add, coe_sum]

include hz h1 hc hX hκ in
theorem varRE_coe (b : β) : varRE s g zero one cols X b = ((varR s g x b : ℝ) : EReal) := by
  unfold varRE varR
  rw [sqRE_coe s g zero one cols X x hz h1 hc hX hκ, normE_coe s zero one cols hz h1 hc, div_coe_coe _ (nrm_pos s hκ b).ne']

include hz h1 hc he hX hW hB hκ in
theorem outRE_coe (hg : ∀ r b, s r b → g r = b) (he0 : 0 < e) (r : ι) (c : κ) :
    outRE s g zero one cols eps X W B r c = ((outR s g x w bias e r c : ℝ) : EReal) := by
  unfold outRE outR
  have hv : 0 ≤ varR s g x (g r) := by rw [varR_eq_varK s g x hκ hg]; exact le_max_right _ _
  have hpos : 0 < Real.sqrt (varR s g x (g r)) + e := add_pos_of_nonneg_of_pos (Real.sqrt_nonneg _) he0
  rw [xcE_coe s g zero one cols X x hz h1 hc hX hκ, varRE_coe s g zero one cols X x hz h1 hc hX hκ, sqrt_coe_nonneg hv,
    he, ← EReal.coe_add, div_coe_coe _ hpos.ne', hW, hB, ← EReal.coe_mul, ← EReal.coe_add]

include hz h1 hc he hX hW hB hrs hrq hκ in
/-- THE TWO FORMS AGREE over the extended reals, on finite inputs. -/
theorem outKE_eq_outRE (hg : ∀ r b, s r b → g r = b) (he0 : 0 < e) (r : ι) (c : κ) :
    outKE s g zero one cols eps rs rq X W B r c = outRE s g zero one cols eps X W B r c := by
  rw [outKE_coe s g zero one cols eps rs rq X W B x w bias e hz h1 hc he hX hW hB hrs hrq hκ he0,
    outRE_coe s g zero one cols eps X W B x w bias e hz h1 hc he hX hW hB hκ hg he0,
    outK_eq_outR s g x w bias e hκ hg he0]

end Ext

end Cert.GraphNorm

end
-- ==== Proof.Segments.lean ====
/-
  The two ways the programs read a node's graph id, a 32-bit word. A node is SUMMED INTO graph `b` when its id, read as
  a signed integer, is `b` (an id outside the table lands nowhere). A node READS its statistics from the graph its id
  names after a negative id has been raised once by the number of graphs and the result clamped into the table. A node
  summed into a graph reads from that same graph.
-/
import Idealize.ShloMosaic.Lib.ValueIdx
import proofs.«163727_j40578851012881_2_alg».proof.Proof.LibRows

noncomputable section

namespace Cert.GraphNorm

open Idealize.ShloMosaic Idealize.ShloMosaic.ValueIdx

/-- Row `r` is summed into graph `b`: its id, read signed, is `b`. -/
def inGraph (bt : (⟨1, ![262144]⟩ : Shape).Idx → BitVec 32) (r : Fin 262144) (b : Fin 1024) : Prop :=
  (bt (ix1 r)).toInt = (b.val : ℤ)

instance (bt : (⟨1, ![262144]⟩ : Shape).Idx → BitVec 32) (r : Fin 262144) (b : Fin 1024) : Decidable (inGraph bt r b) :=
  inferInstanceAs (Decidable ((bt (ix1 r)).toInt = (b.val : ℤ)))

/-- A graph id with a negative value raised once by the number of graphs. -/
def wrapId (v : BitVec 32) : BitVec 32 := Scalar.select (IntOp.cmpi .slt v 0#32) (IntOp.addi v 1024#32) v

/-- The graph row `r` reads from. -/
def graphOf (bt : (⟨1, ![262144]⟩ : Shape).Idx → BitVec 32) (r : Fin 262144) : Fin 1024 :=
  Cert.RowsLib.rowOf 1024 (by decide) (wrapId (bt (ix1 r)))

/-- A row summed into a graph reads from it: its id is non-negative and inside the table, so neither the wrap nor the
    clamp moves it. -/
theorem graphOf_of_inGraph {bt : (⟨1, ![262144]⟩ : Shape).Idx → BitVec 32} {r : Fin 262144} {b : Fin 1024}
    (h : inGraph bt r b) : graphOf bt r = b := by
  unfold inGraph at h
  have hb := b.isLt
  have hslt : (bt (ix1 r)).slt 0#32 = false := by
    simp only [BitVec.slt, BitVec.toInt_zero, h]
    exact decide_eq_false (by omega)
  have hw : wrapId (bt (ix1 r)) = bt (ix1 r) := by
    unfold wrapId IntOp.cmpi
    simp only [hslt]
    exact if_neg (by decide)
  unfold graphOf Cert.RowsLib.rowOf
  refine Fin.ext ?_
  show min (wrapId (bt (ix1 r))).toInt.toNat (1024 - 1) = b.val
  rw [hw, h, Int.toNat_natCast]
  omega

end Cert.GraphNorm

end
-- ==== Proof.LibScatter.lean ====
/-
  General lemmas about the accumulating scatter of whole rows, read at an entry: a table of rows to which update rows
  are added at the rows a column of start indices names, and the same for a vector to which update entries are added.
  The result at an entry is the table's entry plus the sum of the updates whose start index, read as a signed integer,
  names that row; an update whose start index names no row of the table contributes nothing. None mentions a program.
-/
import Idealize.ShloMosaic.Lib.ValueIdx
import Idealize.ShloMosaic.Lib.ValueLayout
import Idealize.ShloMosaic.Lib.Pipeline.Value
import Idealize.ShloMosaic.PureOps.Ideal.Laws

noncomputable section

namespace Cert.ScatterLib

open Idealize.ShloMosaic Idealize.ShloMosaic.ValueIdx

/-! ## Update rows added into a table -/

/-- The dimension numbers of a scatter of whole rows: a table of N rows of C entries, a column of R start indices,
    R update rows of C entries; the row axis of the table is named by the start index, the column axis is the
    window axis. -/
abbrev rowScatterDims (N C R : ℕ)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Rows

variable {N C R : ℕ} (wf : ScatterDims.WF ⟨2, ![N, C]⟩ ⟨2, ![R, 1]⟩ ⟨2, ![R, C]⟩ [1] [0] [0] 1)

/-- On the row axis the window coordinate of an update entry is zero: the row comes from the start index alone. -/
theorem rows_window_zero (r : Fin R) (k' : Fin C) :
    (rowScatterDims N C R wf).window (ix2 r k') (0 : Fin 2) = 0 := by
  unfold ScatterDims.window
  rw [dif_neg (show (0 : Fin 2) ∉ (rowScatterDims N C R wf).sKept from
    (by decide : (0 : Fin 2) ∉ ([1] : List (Fin 2))))]

/-- On the column axis the window coordinate of update entry (r, k') is k'. -/
theorem rows_window_one (r : Fin R) (k' : Fin C) :
    (rowScatterDims N C R wf).window (ix2 r k') (1 : Fin 2) = k'.val := by
  unfold ScatterDims.window
  rw [dif_pos (show (1 : Fin 2) ∈ (rowScatterDims N C R wf).sKept from
    (by decide : (1 : Fin 2) ∈ ([1] : List (Fin 2))))]
  rfl

variable {w : ℕ} (idx : IVec ⟨2, ![R, 1]⟩ w)

/-- On the row axis the window of update entry (r, k') starts at start index r, read as a signed integer. -/
theorem rows_start_zero (r : Fin R) (k' : Fin C) :
    (rowScatterDims N C R wf).start (ix2 r k') idx (0 : Fin 2) = (idx (ix2 r (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 r k')
      ⟨List.idxOf (0 : Fin 2) (rowScatterDims N C R wf).scatterDimsToOperandDims,
        List.idxOf_lt_length_iff.2 (List.mem_singleton.mpr rfl)⟩ = ix2 r (0 : Fin 1) := by
    funext a; refine Fin.ext ?_
    match a with
    | ⟨0, _⟩ => rfl
    | ⟨1, _⟩ => rfl
  rw [hsi]

/-- On the column axis the window starts at zero. -/
theorem rows_start_one (r : Fin R) (k' : Fin C) :
    (rowScatterDims N C R wf).start (ix2 r k') idx (1 : Fin 2) = 0 := by
  unfold ScatterDims.start
  rw [dif_neg (show (1 : Fin 2) ∉ (rowScatterDims N C R wf).scatterDimsToOperandDims from
    (by decide : (1 : Fin 2) ∉ ([0] : List (Fin 2))))]

/-- WHERE AN UPDATE ENTRY LANDS: update entry (r, k') lands at table entry (b, k) exactly when start index r, read
    as a signed integer, is b, and k' is k. -/
theorem rows_resultIdx_iff (r : Fin R) (k' : Fin C) (b : Fin N) (k : Fin C) :
    (rowScatterDims N C R wf).resultIdx? (ix2 r k') idx = some (ix2 b k) ↔
      (idx (ix2 r (0 : Fin 1))).toInt = (b.val : ℤ) ∧ k' = k := by
  have s0 := rows_start_zero wf idx r k'
  have s1 := rows_start_one wf idx r k'
  have w0 := rows_window_zero wf r k'
  have w1 := rows_window_one wf r k'
  have hN : (⟨2, ![N, C]⟩ : Shape).size (0 : Fin 2) = N := rfl
  have hC : (⟨2, ![N, C]⟩ : Shape).size (1 : Fin 2) = C := rfl
  have hb := b.isLt
  have hk := k.isLt
  have hk' := k'.isLt
  unfold ScatterDims.resultIdx?
  split
  · rename_i h
    have h0 := h (0 : Fin 2)
    rw [s0, w0] at h0
    constructor
    · intro he
      have he' := Option.some.inj he
      have e0 : ((rowScatterDims N C R wf).start (ix2 r k') idx (0 : Fin 2)
          + ((rowScatterDims N C R wf).window (ix2 r k') (0 : Fin 2) : ℕ)).toNat = b.val :=
        congrArg Fin.val (congrFun he' (0 : Fin 2))
      have e1 : ((rowScatterDims N C R wf).start (ix2 r k') idx (1 : Fin 2)
          + ((rowScatterDims N C R wf).window (ix2 r k') (1 : Fin 2) : ℕ)).toNat = k.val :=
        congrArg Fin.val (congrFun he' (1 : Fin 2))
      rw [s0, w0] at e0
      rw [s1, w1] at e1
      exact ⟨by omega, Fin.ext (by omega)⟩
    · rintro ⟨hbe, hke⟩
      refine congrArg some (funext (Fin.forall_fin_two.2 ⟨Fin.ext ?_, Fin.ext ?_⟩))
      · show ((rowScatterDims N C R wf).start (ix2 r k') idx (0 : Fin 2)
          + ((rowScatterDims N C R wf).window (ix2 r k') (0 : Fin 2) : ℕ)).toNat = b.val
        rw [s0, w0]; omega
      · show ((rowScatterDims N C R wf).start (ix2 r k') idx (1 : Fin 2)
          + ((rowScatterDims N C R wf).window (ix2 r k') (1 : Fin 2) : ℕ)).toNat = k.val
        rw [s1, w1, hke]; omega
  · rename_i h
    constructor
    · intro he; exact absurd he (by simp)
    · rintro ⟨hbe, hke⟩
      exfalso; apply h
      refine Fin.forall_fin_two.2 ⟨?_, ?_⟩
      · rw [s0, w0, hN]; omega
      · rw [s1, w1, hC]; omega

/-- The same for an update index not yet split into its coordinates. -/
theorem rows_resultIdx_iff' (j : (⟨2, ![R, C]⟩ : Shape).Idx) (b : Fin N) (k : Fin C) :
    (rowScatterDims N C R wf).resultIdx? j idx = some (ix2 b k) ↔
      (idx (ix2 (j (0 : Fin 2)) (0 : Fin 1))).toInt = (b.val : ℤ) ∧ j (1 : Fin 2) = k := by
  have e : (ix2 (j (0 : Fin 2)) (j (1 : Fin 2)) : (⟨2, ![R, C]⟩ : Shape).Idx) = j := (eq_ix2 j).symm
  have h := rows_resultIdx_iff wf idx (j (0 : Fin 2)) (j (1 : Fin 2)) b k
  rw [e] at h
  exact h

end Rows

/-- THE ROW SCATTER READ AT (b, k): the table's entry plus the sum, over the update rows whose start index, read as
    a signed integer, is b, of their entry in column k. -/
theorem scatterAdd_rows_apply {N C R w : ℕ}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (b : Fin N) (k : Fin C) :
    Ideal.hostScatterAdd (rowScatterDims N C R wf) x idx upd (ix2 b k) = x (ix2 b k)
      + ∑ r ∈ Finset.univ.filter (fun r : Fin R => (idx (ix2 r (0 : Fin 1))).toInt = (b.val : ℤ)), upd (ix2 r k) := by
  unfold Ideal.hostScatterAdd
  congr 1
  refine Finset.sum_nbij' (fun j => ((j (0 : Fin 2)) : Fin R)) (fun r => (ix2 r k : (⟨2, ![R, C]⟩ : Shape).Idx))
    ?_ ?_ ?_ ?_ ?_
  · intro j hj
    have hj' := (rows_resultIdx_iff' wf idx j b k).1 (Finset.mem_filter.1 hj).2
    exact Finset.mem_filter.2 ⟨Finset.mem_univ _, hj'.1⟩
  · intro r hr
    exact Finset.mem_filter.2 ⟨Finset.mem_univ _,
      (rows_resultIdx_iff wf idx r k b k).2 ⟨(Finset.mem_filter.1 hr).2, rfl⟩⟩
  · intro j hj
    have hj' := (rows_resultIdx_iff' wf idx j b k).1 (Finset.mem_filter.1 hj).2
    show ix2 (j (0 : Fin 2)) k = j
    rw [← hj'.2]; exact (eq_ix2 j).symm
  · intro r _; rfl
  · intro j hj
    have hj' := (rows_resultIdx_iff' wf idx j b k).1 (Finset.mem_filter.1 hj).2
    show upd j = upd (ix2 (j (0 : Fin 2)) k)
    rw [← hj'.2]; exact congrArg upd (eq_ix2 j)

/-! ## Update entries added into a vector -/

/-- The dimension numbers of a scatter of single entries into a vector: a vector of N entries, a column of R start
    indices, R update entries; the vector's one axis is named by the start index and there is no window axis. -/
abbrev vecScatterDims (N R : ℕ)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec

variable {N R : ℕ} (wf : ScatterDims.WF ⟨1, ![N]⟩ ⟨2, ![R, 1]⟩ ⟨1, ![R]⟩ [] [0] [0] 1)

/-- The window coordinate of an update entry is zero: the place comes from the start index alone. -/
theorem vec_window_zero (r : Fin R) :
    (vecScatterDims N R wf).window (ix1 r) (0 : Fin 1) = 0 := by
  unfold ScatterDims.window
  rw [dif_neg (show (0 : Fin 1) ∉ (vecScatterDims N R wf).sKept from
    (by decide : (0 : Fin 1) ∉ ([] : List (Fin 1))))]

variable {w : ℕ} (idx : IVec ⟨2, ![R, 1]⟩ w)

/-- The window of update entry r starts at start index r, read as a signed integer. -/
theorem vec_start_zero (r : Fin R) :
    (vecScatterDims N R wf).start (ix1 r) idx (0 : Fin 1) = (idx (ix2 r (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 r)
      ⟨List.idxOf (0 : Fin 1) (vecScatterDims N R wf).scatterDimsToOperandDims,
        List.idxOf_lt_length_iff.2 (List.mem_singleton.mpr rfl)⟩ = ix2 r (0 : Fin 1) := by
    funext a; refine Fin.ext ?_
    match a with
    | ⟨0, _⟩ => rfl
    | ⟨1, _⟩ => rfl
  rw [hsi]

/-- WHERE AN UPDATE ENTRY LANDS: update entry r lands at vector entry b exactly when start index r, read as a signed
    integer, is b. -/
theorem vec_resultIdx_iff (r : Fin R) (b : Fin N) :
    (vecScatterDims N R wf).resultIdx? (ix1 r) idx = some (ix1 b) ↔
      (idx (ix2 r (0 : Fin 1))).toInt = (b.val : ℤ) := by
  have s0 := vec_start_zero wf idx r
  have w0 := vec_window_zero wf r
  have hN : (⟨1, ![N]⟩ : Shape).size (0 : Fin 1) = N := rfl
  have hb := b.isLt
  unfold ScatterDims.resultIdx?
  split
  · rename_i h
    have h0 := h (0 : Fin 1)
    rw [s0, w0] at h0
    constructor
    · intro he
      have he' := Option.some.inj he
      have e0 : ((vecScatterDims N R wf).start (ix1 r) idx (0 : Fin 1)
          + ((vecScatterDims N R wf).window (ix1 r) (0 : Fin 1) : ℕ)).toNat = b.val :=
        congrArg Fin.val (congrFun he' (0 : Fin 1))
      rw [s0, w0] at e0
      omega
    · intro hbe
      refine congrArg some (funext (Fin.forall_fin_one.2 (Fin.ext ?_)))
      show ((vecScatterDims N R wf).start (ix1 r) idx (0 : Fin 1)
          + ((vecScatterDims N R wf).window (ix1 r) (0 : Fin 1) : ℕ)).toNat = b.val
      rw [s0, w0]; omega
  · rename_i h
    constructor
    · intro he; exact absurd he (by simp)
    · intro hbe
      exfalso; apply h
      refine Fin.forall_fin_one.2 ?_
      rw [s0, w0, hN]; omega

/-- The same for an update index not yet split into its coordinate. -/
theorem vec_resultIdx_iff' (j : (⟨1, ![R]⟩ : Shape).Idx) (b : Fin N) :
    (vecScatterDims N R wf).resultIdx? j idx = some (ix1 b) ↔
      (idx (ix2 (j (0 : Fin 1)) (0 : Fin 1))).toInt = (b.val : ℤ) := by
  have e : (ix1 (j (0 : Fin 1)) : (⟨1, ![R]⟩ : Shape).Idx) = j := (eq_ix1 j).symm
  have h := vec_resultIdx_iff wf idx (j (0 : Fin 1)) b
  rw [e] at h
  exact h

end Vec

/-- THE VECTOR SCATTER READ AT b: the vector's entry plus the sum of the update entries whose start index, read as a
    signed integer, is b. -/
theorem scatterAdd_vec_apply {N R w : ℕ}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (b : Fin N) :
    Ideal.hostScatterAdd (vecScatterDims N R wf) x idx upd (ix1 b) = x (ix1 b)
      + ∑ r ∈ Finset.univ.filter (fun r : Fin R => (idx (ix2 r (0 : Fin 1))).toInt = (b.val : ℤ)), upd (ix1 r) := by
  unfold Ideal.hostScatterAdd
  congr 1
  refine Finset.sum_nbij' (fun j => ((j (0 : Fin 1)) : Fin R)) (fun r => (ix1 r : (⟨1, ![R]⟩ : Shape).Idx))
    ?_ ?_ ?_ ?_ ?_
  · intro j hj
    exact Finset.mem_filter.2 ⟨Finset.mem_univ _, (vec_resultIdx_iff' wf idx j b).1 (Finset.mem_filter.1 hj).2⟩
  · intro r hr
    exact Finset.mem_filter.2 ⟨Finset.mem_univ _, (vec_resultIdx_iff wf idx r b).2 (Finset.mem_filter.1 hr).2⟩
  · intro j _
    exact (eq_ix1 j).symm
  · intro r _; rfl
  · intro j _
    exact congrArg upd (eq_ix1 j)

end Cert.ScatterLib

end
-- ==== Proof.KernelHost.lean ====
/-
  The host operations between the two regions, read at a row. Each node's packed row is one, its sum and its sum of
  squares; the per-graph sums of the packed rows give each graph its count, its sum and its sum of squares; the count
  clamped from below by one, times the number of columns, is the divisor; mean, variance, scale and shift follow; and
  the row's two parameters are its graph's scale and shift, the graph named by the row's id after a negative id has been
  raised once and the result clamped into the table. So the two columns of the parameter array are the specification's
  scale and shift of the row's graph, over the row sums and row sums of squares the first region left. No host operation
  writes an argument, and the first region only reads its input.
-/
import proofs.«163727_j40578851012881_2_alg».proof.Proof.DataI
import proofs.«163727_j40578851012881_2_alg».proof.Proof.HostStages
import proofs.«163727_j40578851012881_2_alg».proof.Proof.SpecE
import proofs.«163727_j40578851012881_2_alg».proof.Proof.Segments
import proofs.«163727_j40578851012881_2_alg».proof.Proof.LibRows
import proofs.«163727_j40578851012881_2_alg».proof.Proof.LibIndex
import proofs.«163727_j40578851012881_2_alg».proof.Proof.LibScatter

set_option maxRecDepth 16384

noncomputable section

namespace Cert.KernelIdeal.Hand

open Idealize.ShloMosaic Idealize.ShloMosaic.TcCoe Idealize.ShloMosaic.ValueIdx
open Cert.KernelIdeal Cert.KernelIdeal.Gen

/-! ## The four words -/

abbrev zeroW : EReal := Ideal.ofBits .f32 0x00000000#32
abbrev oneW : EReal := Ideal.ofBits .f32 0x3F800000#32
abbrev colsW : EReal := Ideal.ofBits .f32 0x43800000#32
abbrev epsW : EReal := Ideal.ofBits .f32 0x3727C5AC#32

/-! ## Columns side by side, a column cut out, a splat word -/

section Pure
variable {α : Type}

/-- Three one-column arrays of M rows laid side by side: column 0 of the result reads the first. -/
theorem concat3_cols_apply0 {M : ℕ} (x₀ x₁ x₂ : (⟨2, ![M, 1]⟩ : Shape).Idx → α)
    (h : Shape.Concatenates [(⟨2, ![M, 1]⟩ : Shape), ⟨2, ![M, 1]⟩, ⟨2, ![M, 1]⟩] ⟨2, ![M, 3]⟩ (1 : Fin 2)) (p : Fin M) :
    concatenate ⟨2, ![M, 3]⟩ (1 : Fin 2) [⟨⟨2, ![M, 1]⟩, x₀⟩, ⟨⟨2, ![M, 1]⟩, x₁⟩, ⟨⟨2, ![M, 1]⟩, x₂⟩] h (ix2 p (0 : Fin 3))
      = x₀ (ix2 p (0 : Fin 1)) :=
  concatenate_apply_piece (t := ⟨2, ![M, 3]⟩) (1 : Fin 2) [⟨⟨2, ![M, 1]⟩, x₀⟩, ⟨⟨2, ![M, 1]⟩, x₁⟩, ⟨⟨2, ![M, 1]⟩, x₂⟩] h (ix2 p (0 : Fin 3)) 0 (by simp) ⟨2, ![M, 1]⟩ x₀ rfl rfl 0 rfl (ix2 p (0 : Fin 1))
    (fun b hb => by
      match b with
      | ⟨0, _⟩ => rfl
      | ⟨1, _⟩ => exact absurd rfl hb) rfl

/-- Column 1 reads the second. -/
theorem concat3_cols_apply1 {M : ℕ} (x₀ x₁ x₂ : (⟨2, ![M, 1]⟩ : Shape).Idx → α)
    (h : Shape.Concatenates [(⟨2, ![M, 1]⟩ : Shape), ⟨2, ![M, 1]⟩, ⟨2, ![M, 1]⟩] ⟨2, ![M, 3]⟩ (1 : Fin 2)) (p : Fin M) :
    concatenate ⟨2, ![M, 3]⟩ (1 : Fin 2) [⟨⟨2, ![M, 1]⟩, x₀⟩, ⟨⟨2, ![M, 1]⟩, x₁⟩, ⟨⟨2, ![M, 1]⟩, x₂⟩] h (ix2 p (1 : Fin 3))
      = x₁ (ix2 p (0 : Fin 1)) :=
  concatenate_apply_piece (t := ⟨2, ![M, 3]⟩) (1 : Fin 2) [⟨⟨2, ![M, 1]⟩, x₀⟩, ⟨⟨2, ![M, 1]⟩, x₁⟩, ⟨⟨2, ![M, 1]⟩, x₂⟩] h (ix2 p (1 : Fin 3)) 1 (by simp) ⟨2, ![M, 1]⟩ x₁ rfl rfl 1 rfl (ix2 p (0 : Fin 1))
    (fun b hb => by
      match b with
      | ⟨0, _⟩ => rfl
      | ⟨1, _⟩ => exact absurd rfl hb) rfl

/-- Column 2 reads the third. -/
theorem concat3_cols_apply2 {M : ℕ} (x₀ x₁ x₂ : (⟨2, ![M, 1]⟩ : Shape).Idx → α)
    (h : Shape.Concatenates [(⟨2, ![M, 1]⟩ : Shape), ⟨2, ![M, 1]⟩, ⟨2, ![M, 1]⟩] ⟨2, ![M, 3]⟩ (1 : Fin 2)) (p : Fin M) :
    concatenate ⟨2, ![M, 3]⟩ (1 : Fin 2) [⟨⟨2, ![M, 1]⟩, x₀⟩, ⟨⟨2, ![M, 1]⟩, x₁⟩, ⟨⟨2, ![M, 1]⟩, x₂⟩] h (ix2 p (2 : Fin 3))
      = x₂ (ix2 p (0 : Fin 1)) :=
  concatenate_apply_piece (t := ⟨2, ![M, 3]⟩) (1 : Fin 2) [⟨⟨2, ![M, 1]⟩, x₀⟩, ⟨⟨2, ![M, 1]⟩, x₁⟩, ⟨⟨2, ![M, 1]⟩, x₂⟩] h (ix2 p (2 : Fin 3)) 2 (by simp) ⟨2, ![M, 1]⟩ x₂ rfl rfl 2 rfl (ix2 p (0 : Fin 1))
    (fun b hb => by
      match b with
      | ⟨0, _⟩ => rfl
      | ⟨1, _⟩ => exact absurd rfl hb) rfl

/-- Column o of an array of M rows, cut out as a one-column array, reads at row p the array at (p, o). -/
theorem slice_col_apply {M C : ℕ} (o : ℕ) (x : (⟨2, ![M, C]⟩ : Shape).Idx → α)
    (h : (⟨2, ![M, C]⟩ : Shape).Slices ![0, o] ⟨2, ![M, 1]⟩) (p : Fin M) (k : Fin C) (hk : k.val = o) :
    extractStridedSlice ⟨2, ![M, 1]⟩ ![0, o] x h (ix2 p (0 : Fin 1)) = x (ix2 p k) :=
  extractStridedSlice_apply _ _ _ _ _ (fun ax => by
    match ax with
    | ⟨0, _⟩ => exact (Nat.zero_add _).symm
    | ⟨1, _⟩ => exact hk)

/-- A splat word broadcast to any shape reads, everywhere, the extended real the word denotes. -/
theorem bcastConst_apply {t : Shape} (h : S_.BroadcastsInDim t (![] : Fin 0 → Fin t.rank)) (w : BitVec FTy.f32.bits) (j : t.Idx) :
    broadcastInDim t ![] h (constant (F := Ideal) S_ .f32 w) j = Ideal.ofBits .f32 w :=
  Cert.LayoutLib.broadcastInDim_scalar_apply h _ j

end Pure

/-! ## The stages read at an entry -/

theorem onesCol_apply (r : Fin 262144) : onesCol (ix2 r (0 : Fin 1)) = oneW := by
  unfold onesCol
  rw [Cert.LayoutLib.broadcastInDim_vecCol_apply]
  exact bcastConst_apply _ _ _

theorem statCol0_apply (x0 : FVec Ideal S262144x2 .f32) (r : Fin 262144) :
    statCol0 x0 (ix2 r (0 : Fin 1)) = x0 (ix2 r (0 : Fin 2)) := by
  unfold statCol0
  rw [Cert.LayoutLib.broadcastInDim_vecCol_apply, Cert.RowsLib.shapeCast_colvec_apply]
  exact slice_col_apply 0 x0 _ r (0 : Fin 2) rfl

theorem statCol1_apply (x0 : FVec Ideal S262144x2 .f32) (r : Fin 262144) :
    statCol1 x0 (ix2 r (0 : Fin 1)) = x0 (ix2 r (1 : Fin 2)) := by
  unfold statCol1
  rw [Cert.LayoutLib.broadcastInDim_vecCol_apply, Cert.RowsLib.shapeCast_colvec_apply]
  exact slice_col_apply 1 x0 _ r (1 : Fin 2) rfl

/-- A packed row: the word for one, the row's sum, the row's sum of squares. -/
theorem packed_apply0 (x0 : FVec Ideal S262144x2 .f32) (r : Fin 262144) : packed x0 (ix2 r (0 : Fin 3)) = oneW := by
  unfold packed
  rw [concat3_cols_apply0]
  exact onesCol_apply r
theorem packed_apply1 (x0 : FVec Ideal S262144x2 .f32) (r : Fin 262144) :
    packed x0 (ix2 r (1 : Fin 3)) = x0 (ix2 r (0 : Fin 2)) := by
  unfold packed
  rw [concat3_cols_apply1]
  exact statCol0_apply x0 r
theorem packed_apply2 (x0 : FVec Ideal S262144x2 .f32) (r : Fin 262144) :
    packed x0 (ix2 r (2 : Fin 3)) = x0 (ix2 r (1 : Fin 2)) := by
  unfold packed
  rw [concat3_cols_apply2]
  exact statCol1_apply x0 r

theorem idCol_apply (bt : IVec S262144 32) (r : Fin 262144) : idCol bt (ix2 r (0 : Fin 1)) = bt (ix1 r) :=
  Cert.LayoutLib.broadcastInDim_vecCol_apply _ bt r 0

/-- THE PER-GRAPH SUMS READ AT (b, k): the zero word plus the sum, over the rows summed into graph b, of column k of
    their packed rows. -/
theorem segSums_apply (x0 : FVec Ideal S262144x2 .f32) (bt : IVec S262144 32) (b : Fin 1024) (k : Fin 3) :
    segSums x0 bt (ix2 b k)
      = zeroW + ∑ r ∈ Finset.univ.filter (fun r : Fin 262144 => Cert.GraphNorm.inGraph bt r b), packed x0 (ix2 r k) := by
  unfold segSums
  refine (Cert.ScatterLib.scatterAdd_rows_apply Facts₀.scatter_S1024x3_S262144x1_S262144x3_1_0_0_1_wf _ (idCol bt) (packed x0) b k).trans ?_
  rw [bcastConst_apply]
  refine congrArg (zeroW + ·) (Finset.sum_congr (Finset.filter_congr fun r _ => ?_) fun _ _ => rfl)
  rw [idCol_apply]
  exact Iff.rfl

theorem segCol0_apply (g : FVec Ideal S1024x3 .f32) (b : Fin 1024) : segCol0 g (ix1 b) = g (ix2 b (0 : Fin 3)) := by
  unfold segCol0
  rw [Cert.RowsLib.shapeCast_colvec_apply]
  exact slice_col_apply 0 g _ b (0 : Fin 3) rfl
theorem segCol1_apply (g : FVec Ideal S1024x3 .f32) (b : Fin 1024) : segCol1 g (ix1 b) = g (ix2 b (1 : Fin 3)) := by
  unfold segCol1
  rw [Cert.RowsLib.shapeCast_colvec_apply]
  exact slice_col_apply 1 g _ b (1 : Fin 3) rfl
theorem segCol2_apply (g : FVec Ideal S1024x3 .f32) (b : Fin 1024) : segCol2 g (ix1 b) = g (ix2 b (2 : Fin 3)) := by
  unfold segCol2
  rw [Cert.RowsLib.shapeCast_colvec_apply]
  exact slice_col_apply 2 g _ b (2 : Fin 3) rfl

theorem clampDeg_apply (w : BitVec FTy.f32.bits) (deg : FVec Ideal S1024 .f32) (i : S1024.Idx) :
    clampDeg (constant (F := Ideal) S_ .f32 w) deg i = max (Ideal.ofBits .f32 w) (deg i) := by
  unfold clampDeg
  show max _ (deg i) = _
  rw [bcastConst_apply]

theorem nrmV_apply (d : FVec Ideal S1024 .f32) (i : S1024.Idx) : nrmV d i = d i * colsW := by
  unfold nrmV
  show d i * _ = _
  rw [bcastConst_apply]
theorem meanV_apply (s d : FVec Ideal S1024 .f32) (i : S1024.Idx) : meanV s d i = Ideal.div (s i) (d i * colsW) := by
  unfold meanV
  show Ideal.div (s i) (nrmV d i) = _
  rw [nrmV_apply]
theorem varV_apply (s q d : FVec Ideal S1024 .f32) (i : S1024.Idx) :
    varV s q d i = max (Ideal.div (q i) (d i * colsW) - meanV s d i * meanV s d i) zeroW := by
  unfold varV
  show max (Ideal.div (q i) (nrmV d i) - meanV s d i * meanV s d i) _ = _
  rw [nrmV_apply, bcastConst_apply]
theorem invV_apply (s q d : FVec Ideal S1024 .f32) (i : S1024.Idx) :
    invV s q d i = Ideal.div oneW (Ideal.sqrt (varV s q d i) + epsW) := by
  unfold invV
  show Ideal.div _ (Ideal.sqrt (varV s q d i) + _) = _
  rw [bcastConst_apply, bcastConst_apply]

theorem tableOf_apply0 (inv shift : FVec Ideal S1024 .f32) (b : Fin 1024) :
    tableOf inv shift (ix2 b (0 : Fin 2)) = inv (ix1 b) := by
  unfold tableOf
  rw [Cert.RowsLib.concat_cols_left (M := 1024) (A := 1) (B := 1) (T := 2) _ _ _ b (0 : Fin 1) (0 : Fin 2) rfl]
  exact Cert.LayoutLib.broadcastInDim_vecCol_apply _ inv b 0
theorem tableOf_apply1 (inv shift : FVec Ideal S1024 .f32) (b : Fin 1024) :
    tableOf inv shift (ix2 b (1 : Fin 2)) = shift (ix1 b) := by
  unfold tableOf
  rw [Cert.RowsLib.concat_cols_right (M := 1024) (A := 1) (B := 1) (T := 2) _ _ _ b (0 : Fin 1) (1 : Fin 2) rfl]
  exact Cert.LayoutLib.broadcastInDim_vecCol_apply _ shift b 0

/-- The wrapped ids, elementwise. -/
theorem wrapV_apply (bt : IVec S262144 32) (r : Fin 262144) : wrapV bt (ix1 r) = Cert.GraphNorm.wrapId (bt (ix1 r)) := by
  unfold wrapV Cert.GraphNorm.wrapId
  show Scalar.select (IntOp.cmpi .slt (bt (ix1 r)) (broadcastInDim S262144 ![] bcast_S_S262144 (constantI S_ 32 0#32) (ix1 r)))
    (IntOp.addi (bt (ix1 r)) (broadcastInDim S262144 ![] bcast_S_S262144 (constantI S_ 32 1024#32) (ix1 r))) (bt (ix1 r)) = _
  rw [Cert.LayoutLib.broadcastInDim_scalar_apply, Cert.LayoutLib.broadcastInDim_scalar_apply]
  rfl

/-- THE PER-ROW PARAMETERS READ AT (r, k): the table at the graph row r reads from. -/
theorem paramsOf_apply (inv mean : FVec Ideal S1024 .f32) (bt : IVec S262144 32) (r : Fin 262144) (k : Fin 2) :
    paramsOf inv mean bt (ix2 r k) = tableOf inv (mulf (Host.negf mean) inv) (ix2 (Cert.GraphNorm.graphOf bt r) k) := by
  unfold paramsOf
  refine (Cert.RowsLib.gather_rows_apply (by decide) Facts₀.gather_S1024x2_S262144x1_S262144x2_1_0_n_n_0_1_12_wf _ _ r k).trans ?_
  rw [Cert.LayoutLib.broadcastInDim_vecCol_apply, wrapV_apply]
  rfl

/-! ## The stages are the specification's -/

section Match
open Cert.GraphNorm
variable (s : Fin 262144 → Fin 1024 → Prop) [∀ r b, Decidable (s r b)] (rs rq : Fin 262144 → EReal)
variable (S Q D : FVec Ideal S1024 .f32)
variable (hS : ∀ b, S (ix1 b) = sumKE s zeroW rs b) (hQ : ∀ b, Q (ix1 b) = sqKE s zeroW rq b)
  (hD : ∀ b, D (ix1 b) = max oneW (degE s zeroW oneW b))

include hS hD in
theorem mean_match (b : Fin 1024) : meanV S D (ix1 b) = meanKE s zeroW oneW colsW rs b := by
  rw [meanV_apply, hS, hD]; rfl

include hS hQ hD in
theorem var_match (b : Fin 1024) : varV S Q D (ix1 b) = varKE s zeroW oneW colsW rs rq b := by
  rw [varV_apply, mean_match s rs S D hS hD, hQ, hD]; rfl

include hS hQ hD in
theorem inv_match (b : Fin 1024) : invV S Q D (ix1 b) = invKE s zeroW oneW colsW epsW rs rq b := by
  rw [invV_apply, var_match s rs rq S Q D hS hQ hD]; rfl

include hS hQ hD in
theorem shift_match (b : Fin 1024) :
    mulf (Host.negf (meanV S D)) (invV S Q D) (ix1 b) = shiftKE s zeroW oneW colsW epsW rs rq b := by
  show -(meanV S D (ix1 b)) * invV S Q D (ix1 b) = _
  rw [mean_match s rs S D hS hD, inv_match s rs rq S Q D hS hQ hD]; rfl

end Match

/-! ## The kernel's buffers -/

section Kernel
variable (m : (ℓ : Loc nD τ sig) → Buf (Elt Ideal) ℓ) (ρ : Dev nD → PrngReg) (c : Dev nD)

/-- The graph ids. -/
abbrev bt : S262144.Idx → BitVec 32 := m ((c : Thread nD τ).loc main_arg1)
/-- A row's sum, as the first region left it. -/
abbrev rsOf (r : Fin 262144) : EReal := (V1 m ρ c main_v0 : S262144x2.Idx → EReal) (ix2 r (0 : Fin 2))
/-- A row's sum of squares, as the first region left it. -/
abbrev rqOf (r : Fin 262144) : EReal := (V1 m ρ c main_v0 : S262144x2.Idx → EReal) (ix2 r (1 : Fin 2))
/-- The per-graph sums of the packed rows. -/
abbrev sumsArr : FVec Ideal S1024x3 .f32 := segSums (V1 m ρ c main_v0) (bt m c)

/-- The graph ids are never written: every stretch finds them as launched. -/
theorem W1_arg1 : @Eq (IVec S262144 32) (W1 m ρ c (Proc.devRef .tc main_arg1)) (bt m c) :=
  (W1_of_ne m ρ c main_arg1 (by decide)).trans rfl
theorem W2_arg1 : @Eq (IVec S262144 32) (W2 m ρ c (Proc.devRef .tc main_arg1)) (bt m c) :=
  (StableHlo.after_of_writes_sub hostOps1 _ hostOps1_writes (by decide)).trans (W1_arg1 m ρ c)
theorem W3_arg1 : @Eq (IVec S262144 32) (W3 m ρ c (Proc.devRef .tc main_arg1)) (bt m c) :=
  (StableHlo.after_of_writes_sub hostOps1_1 _ hostOps1_1_writes (by decide)).trans (W2_arg1 m ρ c)

/-- After the first stretch: the three columns of the per-graph sums, and the word for one. -/
theorem W2_v14 : @Eq (FVec Ideal S1024 .f32) (W2 m ρ c (Proc.devRef .tc main_v14)) (segCol0 (sumsArr m ρ c)) :=
  (line1_v14 (W1 m ρ c)).trans (congrArg (fun t => segCol0 (segSums (V1 m ρ c main_v0) t)) (W1_arg1 m ρ c))
theorem W2_v16 : @Eq (FVec Ideal S1024 .f32) (W2 m ρ c (Proc.devRef .tc main_v16)) (segCol1 (sumsArr m ρ c)) :=
  (line1_v16 (W1 m ρ c)).trans (congrArg (fun t => segCol1 (segSums (V1 m ρ c main_v0) t)) (W1_arg1 m ρ c))
theorem W2_v18 : @Eq (FVec Ideal S1024 .f32) (W2 m ρ c (Proc.devRef .tc main_v18)) (segCol2 (sumsArr m ρ c)) :=
  (line1_v18 (W1 m ρ c)).trans (congrArg (fun t => segCol2 (segSums (V1 m ρ c main_v0) t)) (W1_arg1 m ρ c))

/-- After the second stretch: the sums and sums of squares untouched, the counts clamped. -/
theorem W3_v16 : @Eq (FVec Ideal S1024 .f32) (W3 m ρ c (Proc.devRef .tc main_v16)) (segCol1 (sumsArr m ρ c)) :=
  (StableHlo.after_of_writes_sub hostOps1_1 _ hostOps1_1_writes (by decide)).trans (W2_v16 m ρ c)
theorem W3_v18 : @Eq (FVec Ideal S1024 .f32) (W3 m ρ c (Proc.devRef .tc main_v18)) (segCol2 (sumsArr m ρ c)) :=
  (StableHlo.after_of_writes_sub hostOps1_1 _ hostOps1_1_writes (by decide)).trans (W2_v18 m ρ c)
theorem W3_v19 : @Eq (FVec Ideal S1024 .f32) (W3 m ρ c (Proc.devRef .tc main_v19))
    (clampDeg (constant (F := Ideal) S_ .f32 0x3F800000#32) (segCol0 (sumsArr m ρ c))) :=
  (line2_v19 (W2 m ρ c)).trans (congrArg₂ clampDeg (line1_cst_1 (W1 m ρ c)) (W2_v14 m ρ c))

/-- After the third stretch: the per-row parameters. -/
theorem V4_v44 : @Eq (FVec Ideal S262144x2 .f32) (V4 m ρ c main_v44)
    (paramsV (segCol1 (sumsArr m ρ c)) (segCol2 (sumsArr m ρ c))
      (clampDeg (constant (F := Ideal) S_ .f32 0x3F800000#32) (segCol0 (sumsArr m ρ c))) (bt m c)) := by
  refine (line3_v44 (W3 m ρ c)).trans ?_
  rw [W3_v16 m ρ c, W3_v18 m ρ c, W3_v19 m ρ c, W3_arg1 m ρ c]

/-! ## The per-graph sums are the specification's -/

theorem sums_deg (b : Fin 1024) :
    clampDeg (constant (F := Ideal) S_ .f32 0x3F800000#32) (segCol0 (sumsArr m ρ c)) (ix1 b)
      = max oneW (Cert.GraphNorm.degE (Cert.GraphNorm.inGraph (bt m c)) zeroW oneW b) := by
  unfold sumsArr
  rw [clampDeg_apply, segCol0_apply, segSums_apply]
  unfold Cert.GraphNorm.degE
  exact congrArg (fun t => max oneW (zeroW + t)) (Finset.sum_congr rfl fun r _ => packed_apply0 _ r)

theorem sums_sum (b : Fin 1024) :
    segCol1 (sumsArr m ρ c) (ix1 b) = Cert.GraphNorm.sumKE (Cert.GraphNorm.inGraph (bt m c)) zeroW (rsOf m ρ c) b := by
  unfold sumsArr
  rw [segCol1_apply, segSums_apply]
  unfold Cert.GraphNorm.sumKE
  exact congrArg (fun t => zeroW + t) (Finset.sum_congr rfl fun r _ => packed_apply1 _ r)

theorem sums_sq (b : Fin 1024) :
    segCol2 (sumsArr m ρ c) (ix1 b) = Cert.GraphNorm.sqKE (Cert.GraphNorm.inGraph (bt m c)) zeroW (rqOf m ρ c) b := by
  unfold sumsArr
  rw [segCol2_apply, segSums_apply]
  unfold Cert.GraphNorm.sqKE
  exact congrArg (fun t => zeroW + t) (Finset.sum_congr rfl fun r _ => packed_apply2 _ r)

/-! ## The two parameters of a row -/

/-- THE SCALE OF ROW r: the specification's scale of the graph the row reads from. -/
theorem params_scale (r : Fin 262144) : (V4 m ρ c main_v44 : S262144x2.Idx → EReal) (ix2 r (0 : Fin 2))
      = Cert.GraphNorm.invKE (Cert.GraphNorm.inGraph (bt m c)) zeroW oneW colsW epsW (rsOf m ρ c) (rqOf m ρ c) (Cert.GraphNorm.graphOf (bt m c) r) := by
  refine (congrFun (V4_v44 m ρ c) (ix2 r (0 : Fin 2))).trans ?_
  unfold paramsV
  rw [paramsOf_apply, tableOf_apply0]
  exact inv_match (Cert.GraphNorm.inGraph (bt m c)) (rsOf m ρ c) (rqOf m ρ c) _ _ _ (sums_sum m ρ c) (sums_sq m ρ c) (sums_deg m ρ c) _

/-- THE SHIFT OF ROW r: the specification's shift of the graph the row reads from. -/
theorem params_shift (r : Fin 262144) : (V4 m ρ c main_v44 : S262144x2.Idx → EReal) (ix2 r (1 : Fin 2))
      = Cert.GraphNorm.shiftKE (Cert.GraphNorm.inGraph (bt m c)) zeroW oneW colsW epsW (rsOf m ρ c) (rqOf m ρ c) (Cert.GraphNorm.graphOf (bt m c) r) := by
  refine (congrFun (V4_v44 m ρ c) (ix2 r (1 : Fin 2))).trans ?_
  unfold paramsV
  rw [paramsOf_apply, tableOf_apply1]
  exact shift_match (Cert.GraphNorm.inGraph (bt m c)) (rsOf m ρ c) (rqOf m ρ c) _ _ _ (sums_sum m ρ c) (sums_sq m ρ c) (sums_deg m ρ c) _

/-! ## The arguments the second region reads are as launched -/

/-- The input array: the first region reads it through an input window, whose array the pipeline never changes. -/
theorem kept_arg0 : V4 m ρ c main_arg0 = m ((c : Thread nD τ).loc main_arg0) :=
  calc W4 m ρ c (Proc.devRef .tc main_arg0)
    _ = W3 m ρ c (Proc.devRef .tc main_arg0) := StableHlo.after_of_writes_sub hostOps1_2 _ hostOps1_2_writes (by decide)
    _ = W2 m ρ c (Proc.devRef .tc main_arg0) := StableHlo.after_of_writes_sub hostOps1_1 _ hostOps1_1_writes (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
/-- The weight: no window of the first region. -/
theorem kept_arg2 : V4 m ρ c main_arg2 = m ((c : Thread nD τ).loc main_arg2) :=
  calc W4 m ρ c (Proc.devRef .tc main_arg2)
    _ = W3 m ρ c (Proc.devRef .tc main_arg2) := StableHlo.after_of_writes_sub hostOps1_2 _ hostOps1_2_writes (by decide)
    _ = W2 m ρ c (Proc.devRef .tc main_arg2) := StableHlo.after_of_writes_sub hostOps1_1 _ hostOps1_1_writes (by decide)
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl
/-- The bias: no window of the first region. -/
theorem kept_arg3 : V4 m ρ c main_arg3 = m ((c : Thread nD τ).loc main_arg3) :=
  calc W4 m ρ c (Proc.devRef .tc main_arg3)
    _ = W3 m ρ c (Proc.devRef .tc main_arg3) := StableHlo.after_of_writes_sub hostOps1_2 _ hostOps1_2_writes (by decide)
    _ = W2 m ρ c (Proc.devRef .tc main_arg3) := StableHlo.after_of_writes_sub hostOps1_1 _ hostOps1_1_writes (by decide)
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl

end Kernel

end Cert.KernelIdeal.Hand

end
-- ==== Proof.Consts.lean ====
/-
  The four float words both programs spell, as the extended reals they denote: zero, one, the number of columns 256,
  and the small positive number added to the standard deviation (the single-precision neighbour of one hundred
  thousandth, 10995116 · 2⁻⁴⁰).
-/
import Idealize.ShloMosaic.PureOps.Ideal

noncomputable section

namespace Cert.GraphNorm

open Idealize.ShloMosaic

abbrev zeroW : EReal := Ideal.ofBits .f32 0x00000000#32
abbrev oneW : EReal := Ideal.ofBits .f32 0x3F800000#32
abbrev colsW : EReal := Ideal.ofBits .f32 0x43800000#32
abbrev epsW : EReal := Ideal.ofBits .f32 0x3727C5AC#32

/-- The real number the fourth word denotes. -/
def epsR : ℝ := 10995116 * (2 : ℝ) ^ (-40 : ℤ)

theorem epsR_pos : 0 < epsR := by unfold epsR; positivity

theorem zeroW_eq : zeroW = 0 := by
  simp [zeroW, Ideal.ofBits, Ideal.ieee]

theorem oneW_eq : oneW = 1 := by
  simp [oneW, Ideal.ofBits, Ideal.ieee, -EReal.coe_mul]; norm_num

theorem colsW_eq : colsW = ((256 : ℝ) : EReal) := by
  simp [colsW, Ideal.ofBits, Ideal.ieee, -EReal.coe_mul]; norm_num

theorem epsW_eq : epsW = (epsR : EReal) := by
  simp [epsW, epsR, Ideal.ofBits, Ideal.ieee, -EReal.coe_mul]

end Cert.GraphNorm

end
-- ==== Proof.Bridge.lean ====
/-
  The kernel's result read at an entry is the two-pass form. The normalisation region leaves, at row `r` and column
  `k`, the feature scaled and shifted by the two parameters gathered to the row, then by the weight and the bias of the
  column; the parameters are the inverse deviation and the negated mean times it, of the graph the row reads from, built
  from the segment sums of the row statistics the first region leaves; and those statistics are each row's sum and sum
  of squares. That is the one-pass form, which agrees with the two-pass form on finite inputs.
-/
import proofs.«163727_j40578851012881_2_alg».proof.Proof.StatsValue
import proofs.«163727_j40578851012881_2_alg».proof.Proof.NormValue
import proofs.«163727_j40578851012881_2_alg».proof.Proof.KernelHost
import proofs.«163727_j40578851012881_2_alg».proof.Proof.SpecE
import proofs.«163727_j40578851012881_2_alg».proof.Proof.Segments
import proofs.«163727_j40578851012881_2_alg».proof.Proof.Consts

noncomputable section

namespace Cert.KernelIdeal.Hand

open Idealize.ShloMosaic Idealize.ShloMosaic.TcCoe Idealize.ShloMosaic.ValueIdx
open Cert.KernelIdeal Cert.KernelIdeal.Gen

variable (m : (ℓ : Loc nD τ sig) → Buf (Elt Ideal) ℓ) (ρ : Dev nD → PrngReg) (c : Dev nD)

/-- The number of columns, as the word for it denotes. -/
theorem cols_card : Cert.GraphNorm.colsW = (((Fintype.card (Fin 256) : ℕ) : ℝ) : EReal) := by
  rw [Cert.GraphNorm.colsW_eq, Fintype.card_fin]; norm_num

/-- THE KERNEL'S RESULT at row `r`, column `k`, for features `X`, weight `Wt` and bias `Bs` holding real numbers. -/
theorem out_entry
    (X : S262144x256.Idx → EReal) (hX : X = m ((c : Thread nD τ).loc main_arg0))
    (Wt : S256.Idx → EReal) (hWt : Wt = m ((c : Thread nD τ).loc main_arg2))
    (Bs : S256.Idx → EReal) (hBs : Bs = m ((c : Thread nD τ).loc main_arg3))
    (hfX : ∀ i, ∃ t : ℝ, X i = (t : EReal)) (hfW : ∀ i, ∃ t : ℝ, Wt i = (t : EReal)) (hfB : ∀ i, ∃ t : ℝ, Bs i = (t : EReal))
    (r : Fin 262144) (k : Fin 256) :
    (W5 m ρ c (Proc.devRef .tc main_v45) : S262144x256.Idx → EReal) (ix2 r k)
      = Cert.GraphNorm.outRE (Cert.GraphNorm.inGraph (bt m c)) (Cert.GraphNorm.graphOf (bt m c))
          Cert.GraphNorm.zeroW Cert.GraphNorm.oneW Cert.GraphNorm.colsW Cert.GraphNorm.epsW
          (fun r k => X (ix2 r k)) (fun k => Wt (ix1 k)) (fun k => Bs (ix1 k)) r k := by
  choose x hx using fun (r : Fin 262144) (k : Fin 256) => hfX (ix2 r k)
  choose w hw using fun (k : Fin 256) => hfW (ix1 k)
  choose bias hb using fun (k : Fin 256) => hfB (ix1 k)
  have hrs : ∀ r, rsOf m ρ c r = ∑ k : Fin 256, X (ix2 r k) := fun r => stats_sum_of m ρ c r X hX
  have hrq : ∀ r, rqOf m ρ c r = ∑ k : Fin 256, X (ix2 r k) * X (ix2 r k) := fun r => stats_sumsq_of m ρ c r X hX
  rw [norm_out_of m ρ c r k X (V4 m ρ c main_v44) Wt Bs (hX.trans (kept_arg0 m ρ c).symm) rfl
      (hWt.trans (kept_arg2 m ρ c).symm) (hBs.trans (kept_arg3 m ρ c).symm),
    params_scale, params_shift]
  refine Eq.trans ?_ (Cert.GraphNorm.outKE_eq_outRE (Cert.GraphNorm.inGraph (bt m c)) (Cert.GraphNorm.graphOf (bt m c))
    Cert.GraphNorm.zeroW Cert.GraphNorm.oneW Cert.GraphNorm.colsW Cert.GraphNorm.epsW (rsOf m ρ c) (rqOf m ρ c)
    (fun r k => X (ix2 r k)) (fun k => Wt (ix1 k)) (fun k => Bs (ix1 k)) x w bias Cert.GraphNorm.epsR
    Cert.GraphNorm.zeroW_eq Cert.GraphNorm.oneW_eq cols_card Cert.GraphNorm.epsW_eq hx hw hb hrs hrq (by simp)
    (fun r b h => Cert.GraphNorm.graphOf_of_inGraph h) Cert.GraphNorm.epsR_pos r k)
  unfold Cert.GraphNorm.outKE
  rfl

end Cert.KernelIdeal.Hand

end
-- ==== Proof.RefSide.lean ====
/-
  The reference's result, read at an entry, is the two-pass form of the per-graph normalisation: per graph the count of
  its rows (a segment sum of ones), the divisor `max 1 count · 256`, the mean (the segment sum of the features summed
  over the columns, over the divisor); per entry the feature less the mean of the graph its row reads from; per graph
  the variance (the segment sum of the centred squares summed over the columns, over the divisor); and the entry
  `(x − mean) / (√variance + ε) · weight + bias`. Each stage is read at an index from the stage before; the three
  segment sums land a row on the graph its id names when read signed, and the two gathers read a row's graph through
  the wrapped and clamped id.
-/
import proofs.«163727_j40578851012881_2_alg».proof.Proof.Gen.ReferenceIdeal.Run
import proofs.«163727_j40578851012881_2_alg».proof.Proof.Gen.ReferenceIdeal.Read
import proofs.«163727_j40578851012881_2_alg».proof.Proof.SpecE
import proofs.«163727_j40578851012881_2_alg».proof.Proof.Segments
import proofs.«163727_j40578851012881_2_alg».proof.Proof.Consts
import proofs.«163727_j40578851012881_2_alg».proof.Proof.LibRows
import proofs.«163727_j40578851012881_2_alg».proof.Proof.LibScatter
import Idealize.ShloMosaic.Lib.ValueIdx

noncomputable section

namespace Cert.ReferenceIdeal.RefValue

open Cert.ReferenceIdeal Cert.ReferenceIdeal.Read Idealize.ShloMosaic Idealize.ShloMosaic.ValueIdx Cert.GraphNorm

variable (x0 : (⟨S262144x256, .f32⟩ : BufTy).Contents (Elt Ideal)) (x1 : (⟨S262144, .i32⟩ : BufTy).Contents (Elt Ideal))
  (x2 x3 : (⟨S256, .f32⟩ : BufTy).Contents (Elt Ideal))

/-- The features as a function of row and column, and a vector as a function of the column. -/
abbrev featOf (x0 : (⟨S262144x256, .f32⟩ : BufTy).Contents (Elt Ideal)) : Fin 262144 → Fin 256 → EReal := fun r k => x0 (ix2 r k)
abbrev vecOf (v : (⟨S256, .f32⟩ : BufTy).Contents (Elt Ideal)) : Fin 256 → EReal := fun k => v (ix1 k)

/-! ## The layout maps at coordinates -/

theorem idx_v2 (r : Fin 262144) : idx_main_v2 (ix2 r (0 : Fin 1)) = ix1 r :=
  funext fun a => Fin.ext (by match a with | ⟨0, _⟩ => rfl)
theorem idx_v9 (r : Fin 262144) : idx_main_v9 (ix2 r (0 : Fin 1)) = ix1 r :=
  funext fun a => Fin.ext (by match a with | ⟨0, _⟩ => rfl)
theorem idx_v25 (r : Fin 262144) : idx_main_v25 (ix2 r (0 : Fin 1)) = ix1 r :=
  funext fun a => Fin.ext (by match a with | ⟨0, _⟩ => rfl)
theorem idx_v19 (r : Fin 262144) : idx_main_v19 (ix2 r (0 : Fin 1)) = ix1 r :=
  funext fun a => Fin.ext (by match a with | ⟨0, _⟩ => rfl)
theorem idx_v36 (r : Fin 262144) : idx_main_v36 (ix2 r (0 : Fin 1)) = ix1 r :=
  funext fun a => Fin.ext (by match a with | ⟨0, _⟩ => rfl)
theorem idx_v5 (b : Fin 1024) : idx_main_v5 (ix2 b (0 : Fin 1)) = ix1 b :=
  funext fun a => Fin.ext (by match a with | ⟨0, _⟩ => rfl)
theorem idx_v12 (b : Fin 1024) : idx_main_v12 (ix2 b (0 : Fin 1)) = ix1 b :=
  funext fun a => Fin.ext (by match a with | ⟨0, _⟩ => rfl)
theorem idx_v28 (b : Fin 1024) : idx_main_v28 (ix2 b (0 : Fin 1)) = ix1 b :=
  funext fun a => Fin.ext (by match a with | ⟨0, _⟩ => rfl)
theorem idx_v11 (b : Fin 1024) (k : Fin 256) : idx_main_v11 (ix1 b) k = ix2 b k :=
  funext fun a => Fin.ext (by match a with | ⟨0, _⟩ => rfl | ⟨1, _⟩ => rfl)
theorem idx_v27 (b : Fin 1024) (k : Fin 256) : idx_main_v27 (ix1 b) k = ix2 b k :=
  funext fun a => Fin.ext (by match a with | ⟨0, _⟩ => rfl | ⟨1, _⟩ => rfl)
theorem idx_v21 (r : Fin 262144) (k : Fin 256) : idx_main_v21 (ix2 r k) = ix2 r (0 : Fin 1) :=
  funext fun a => Fin.ext (by match a with | ⟨0, _⟩ => rfl | ⟨1, _⟩ => rfl)
theorem idx_v40 (r : Fin 262144) (k : Fin 256) : idx_main_v40 (ix2 r k) = ix2 r (0 : Fin 1) :=
  funext fun a => Fin.ext (by match a with | ⟨0, _⟩ => rfl | ⟨1, _⟩ => rfl)
theorem idx_v43 (r : Fin 262144) (k : Fin 256) : idx_main_v43 (ix2 r k) = ix2 (0 : Fin 1) k :=
  funext fun a => Fin.ext (by match a with | ⟨0, _⟩ => rfl | ⟨1, _⟩ => rfl)
theorem idx_v46 (r : Fin 262144) (k : Fin 256) : idx_main_v46 (ix2 r k) = ix2 (0 : Fin 1) k :=
  funext fun a => Fin.ext (by match a with | ⟨0, _⟩ => rfl | ⟨1, _⟩ => rfl)
theorem idx_v42 (k : Fin 256) : idx_main_v42 (ix2 (0 : Fin 1) k) = ix1 k :=
  funext fun a => Fin.ext (by match a with | ⟨0, _⟩ => rfl)
theorem idx_v45 (k : Fin 256) : idx_main_v45 (ix2 (0 : Fin 1) k) = ix1 k :=
  funext fun a => Fin.ext (by match a with | ⟨0, _⟩ => rfl)

/-! ## The graph a row reads from -/

/-- The id with a negative value raised by the number of graphs, as the first gather's start indices spell it. -/
theorem wrap_v19 (r : Fin 262144) : val_main_v19 (F := Ideal) x1 (ix2 r (0 : Fin 1)) = wrapId (x1 (ix1 r)) := by
  rw [val_main_v19_apply, idx_v19, val_main_v18_apply, val_main_v15_apply, val_main_v17_apply, val_main_v14_apply,
    val_main_v16_apply]
  rfl
/-- The same, as the second gather's. -/
theorem wrap_v36 (r : Fin 262144) : val_main_v36 (F := Ideal) x1 (ix2 r (0 : Fin 1)) = wrapId (x1 (ix1 r)) := by
  rw [val_main_v36_apply, idx_v36, val_main_v35_apply, val_main_v32_apply, val_main_v34_apply, val_main_v31_apply,
    val_main_v33_apply]
  rfl

/-! ## Count and divisor -/

/-- The count of a graph's rows: the segment sum of ones. -/
theorem deg_eq (b : Fin 1024) : val_main_v3 (F := Ideal) x1 (ix1 b) = degE (inGraph x1) zeroW oneW b := by
  have h : val_main_v3 (F := Ideal) x1 = Ideal.hostScatterAdd scatter_S1024_S262144x1_S262144_n_0_0_1
      (val_main_v1 (F := Ideal)) (val_main_v2 (F := Ideal) x1) (val_main_v0 (F := Ideal)) := rfl
  refine ((congrFun h (ix1 b)).trans
    (Cert.ScatterLib.scatterAdd_vec_apply (N := 1024) (R := 262144) _ _ _ _ b)).trans ?_
  unfold degE
  refine congrArg₂ (fun a b : EReal => a + b) ?_ ?_
  · exact (val_main_v1_apply _).trans rfl
  · refine Finset.sum_congr (Finset.filter_congr fun r _ => ?_) (fun r _ => (val_main_v0_apply _).trans rfl)
    rw [val_main_v2_apply, idx_v2]
    exact Iff.rfl

/-- The divisor. -/
theorem norm_eq (b : Fin 1024) : val_main_v7 (F := Ideal) x1 (ix2 b (0 : Fin 1)) = normE (inGraph x1) zeroW oneW colsW b := by
  rw [val_main_v7_apply, val_main_v5_apply, idx_v5, val_main_v4_apply, deg_eq, val_main_v6_apply, val_main_call0_v1_apply]
  rfl

/-! ## Mean -/

/-- The segment sum of the features, summed over the columns. -/
theorem sum_eq (b : Fin 1024) : val_main_v11 (F := Ideal) x0 x1 (ix1 b) = sumRE (inGraph x1) zeroW (featOf x0) b := by
  rw [val_main_v11_apply]
  unfold sumRE
  refine congrArg₂ (fun a b : EReal => a + b) rfl ?_
  refine Finset.sum_congr rfl fun k _ => ?_
  rw [idx_v11]
  have h : val_main_v10 (F := Ideal) x0 x1 = Ideal.hostScatterAdd scatter_S1024x256_S262144x1_S262144x256_1_0_0_1
      (val_main_v8 (F := Ideal)) (val_main_v9 (F := Ideal) x1) x0 := rfl
  refine ((congrFun h (ix2 b k)).trans
    (Cert.ScatterLib.scatterAdd_rows_apply (N := 1024) (C := 256) (R := 262144) _ _ _ _ b k)).trans ?_
  refine congrArg₂ (fun a b : EReal => a + b) ?_ ?_
  · exact (val_main_v8_apply _).trans rfl
  · refine Finset.sum_congr (Finset.filter_congr fun r _ => ?_) (fun r _ => rfl)
    rw [val_main_v9_apply, idx_v9]
    exact Iff.rfl

theorem mean_eq (b : Fin 1024) :
    val_main_v13 (F := Ideal) x0 x1 (ix2 b (0 : Fin 1)) = meanRE (inGraph x1) zeroW oneW colsW (featOf x0) b := by
  rw [val_main_v13_apply, val_main_v12_apply, idx_v12, sum_eq, norm_eq]
  rfl

/-- The mean of the graph a row reads from. -/
theorem gmean_eq (r : Fin 262144) :
    val_main_v20 (F := Ideal) x0 x1 (ix2 r (0 : Fin 1)) = meanRE (inGraph x1) zeroW oneW colsW (featOf x0) (graphOf x1 r) := by
  unfold val_main_v20
  refine (Cert.RowsLib.gather_rows_apply (N := 1024) (C := 1) (R := 262144) (by decide) _ _ _ r (0 : Fin 1)).trans ?_
  rw [wrap_v19]
  exact mean_eq x0 x1 _

/-- The centred entry. -/
theorem centred_eq (r : Fin 262144) (k : Fin 256) :
    val_main_v22 (F := Ideal) x0 x1 (ix2 r k) = xcE (inGraph x1) (graphOf x1) zeroW oneW colsW (featOf x0) r k := by
  rw [val_main_v22_apply, val_main_v21_apply, idx_v21, gmean_eq]
  rfl

/-! ## Variance -/

theorem sq_eq (b : Fin 1024) :
    val_main_v27 (F := Ideal) x0 x1 (ix1 b) = sqRE (inGraph x1) (graphOf x1) zeroW oneW colsW (featOf x0) b := by
  rw [val_main_v27_apply]
  unfold sqRE
  refine congrArg₂ (fun a b : EReal => a + b) rfl ?_
  refine Finset.sum_congr rfl fun k _ => ?_
  rw [idx_v27]
  have h : val_main_v26 (F := Ideal) x0 x1 = Ideal.hostScatterAdd scatter_S1024x256_S262144x1_S262144x256_1_0_0_1
      (val_main_v24 (F := Ideal)) (val_main_v25 (F := Ideal) x1) (val_main_v23 (F := Ideal) x0 x1) := rfl
  refine ((congrFun h (ix2 b k)).trans
    (Cert.ScatterLib.scatterAdd_rows_apply (N := 1024) (C := 256) (R := 262144) _ _ _ _ b k)).trans ?_
  refine congrArg₂ (fun a b : EReal => a + b) ?_ ?_
  · exact (val_main_v24_apply _).trans rfl
  · refine Finset.sum_congr (Finset.filter_congr fun r _ => ?_) (fun r _ => ?_)
    · rw [val_main_v25_apply, idx_v25]
      exact Iff.rfl
    · rw [val_main_v23_apply, centred_eq]
      rfl

theorem var_eq (b : Fin 1024) :
    val_main_v29 (F := Ideal) x0 x1 (ix2 b (0 : Fin 1)) = varRE (inGraph x1) (graphOf x1) zeroW oneW colsW (featOf x0) b := by
  rw [val_main_v29_apply, val_main_v28_apply, idx_v28, sq_eq, norm_eq]
  rfl

/-- The standard deviation of the graph a row reads from, plus the small constant. -/
theorem denom_eq (r : Fin 262144) :
    val_main_v39 (F := Ideal) x0 x1 (ix2 r (0 : Fin 1))
      = Ideal.sqrt (varRE (inGraph x1) (graphOf x1) zeroW oneW colsW (featOf x0) (graphOf x1 r)) + epsW := by
  have hroot : val_main_v37 (F := Ideal) x0 x1 (ix2 r (0 : Fin 1))
      = Ideal.sqrt (varRE (inGraph x1) (graphOf x1) zeroW oneW colsW (featOf x0) (graphOf x1 r)) := by
    unfold val_main_v37
    refine (Cert.RowsLib.gather_rows_apply (N := 1024) (C := 1) (R := 262144) (by decide) _ _ _ r (0 : Fin 1)).trans ?_
    rw [wrap_v36, val_main_v30_apply, Ideal.hostUnary_sqrt_def,
      show Cert.RowsLib.rowOf 1024 (by decide) (wrapId (x1 (ix1 r))) = graphOf x1 r from rfl, var_eq]
  rw [val_main_v39_apply, hroot, val_main_v38_apply, val_main_cst_10_apply, Ideal.addf_def, Ideal.ofBits_def]

/-! ## The result -/

/-- THE REFERENCE'S RESULT at row `r`, column `c`. -/
theorem result_eq (r : Fin 262144) (c : Fin 256) :
    val_main_v47 (F := Ideal) x0 x1 x2 x3 (ix2 r c)
      = outRE (inGraph x1) (graphOf x1) zeroW oneW colsW epsW (featOf x0) (vecOf x2) (vecOf x3) r c := by
  rw [val_main_v47_apply, val_main_v44_apply, val_main_v41_apply, centred_eq, val_main_v40_apply, idx_v40, denom_eq,
    val_main_v43_apply, idx_v43, val_main_v42_apply, idx_v42, val_main_v46_apply, idx_v46, val_main_v45_apply, idx_v45]
  rfl

end Cert.ReferenceIdeal.RefValue

end
-- ==== Proof.Finite.lean ====
/-
  What the precondition says: the three float inputs hold real numbers. The predicate is the conjunction of three
  "every entry's absolute value is below +∞"; a conjunction of one-bit words is one exactly when each is, an
  all-entries reduction by "and" is one exactly when every entry's comparison is, and an extended real whose absolute
  value `max x (−x)` is below +∞ is neither infinity.
-/
import proofs.«163727_j40578851012881_2_alg».proof.Pre_finite_inputs
import proofs.«163727_j40578851012881_2_alg».proof.Proof.LibIndex
import Idealize.ShloMosaic.Lib.ReduceAll
import Idealize.ShloMosaic.Lib.ValueIdx
import Idealize.ShloMosaic.PureOps.Ideal

noncomputable section

namespace Cert.GraphNorm

open Idealize.ShloMosaic Idealize.ShloMosaic.ValueIdx

instance : Subsingleton (Cert.Pre_finite_inputs.S_).Idx := ⟨fun a b => funext fun d => d.elim0⟩

/-- The word for +∞. -/
theorem infW_eq : Ideal.ofBits .f32 0x7F800000#32 = ⊤ := by
  simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  rw [infW_eq] at h
  have hlt : max x (-x) < ⊤ := by
    by_contra hn
    simp [Ideal.cmp, hn] at h
  induction x using EReal.rec with
  | bot => simp at hlt
  | coe r => exact ⟨r, rfl⟩
  | top => simp at hlt

/-- THE PRECONDITION READ BACK: every entry of the features, the weight and the bias is a real number. -/
theorem finite_of_pre [Cert.Pre_finite_inputs.Facts]
    (a0 : FVec Ideal Cert.Pre_finite_inputs.S262144x256 .f32) (a1 : IVec Cert.Pre_finite_inputs.S262144 32)
    (a2 a3 : FVec Ideal Cert.Pre_finite_inputs.S256 .f32)
    (h : Cert.Pre_finite_inputs.fn (F := Ideal) a0 a1 a2 a3 = fun _ => 1#1) :
    (∀ i, ∃ r : ℝ, a0 i = (r : EReal)) ∧ (∀ i, ∃ r : ℝ, a2 i = (r : EReal)) ∧ (∀ i, ∃ r : ℝ, a3 i = (r : EReal)) := by
  have h0 := congrFun h ix0
  dsimp only [Cert.Pre_finite_inputs.fn] at h0
  obtain ⟨h01, hc⟩ := IntOp.andi_eq_one.1 h0
  obtain ⟨ha, hb⟩ := IntOp.andi_eq_one.1 h01
  refine ⟨fun i => ?_, fun i => ?_, fun i => ?_⟩
  · have e := Host.reduce_andi_all _ _ _ _ _ ha i
    unfold cmpf Host.absf at e
    rw [Cert.LayoutLib.broadcastInDim_scalar_apply] at e
    exact real_of_abs_lt _ e
  · have e := Host.reduce_andi_all _ _ _ _ _ hb i
    unfold cmpf Host.absf at e
    rw [Cert.LayoutLib.broadcastInDim_scalar_apply] at e
    exact real_of_abs_lt _ e
  · have e := Host.reduce_andi_all _ _ _ _ _ hc i
    unfold cmpf Host.absf at e
    rw [Cert.LayoutLib.broadcastInDim_scalar_apply] at e
    exact real_of_abs_lt _ e

end Cert.GraphNorm

end
-- ==== Proof.lean ====
/-
  Per-graph normalisation of node features (a graph layer norm): every node's 256 features are centred by the mean and
  scaled by `1 / (standard deviation + ε)` of ALL the entries of the graph the node belongs to, then scaled by a weight
  and shifted by a bias per column.

  The kernel makes two sweeps over the 262144 × 256 feature array, each a grid of 32 blocks of 8192 rows. The first
  leaves per row its sum and its sum of squares. Between the sweeps, per graph: the count of its rows and the sums of
  those two row statistics (one packed segment sum), the divisor `N = max 1 count · 256`, the mean `S / N`, the variance
  `max (Q / N − mean²) 0`, the pair `(1 / (√variance + ε), −mean / (√variance + ε))`, gathered to the rows. The second
  sweep writes `(x · scale + shift) · weight + bias`. The reference centres first and takes the variance of the centred
  entries.

  The two agree on the extended reals when the features, the weight and the bias are finite: for a graph with a row,
  `N` is the number of its entries, so `∑ (x − mean)² = Q − N · mean²` and the clamp at zero is idle; a graph without rows
  has zero sums on both sides; a row whose id is outside the table is summed nowhere by either program and reads, in
  both, the statistics of the graph its clamped id names. Finiteness is used: the identity distributes products over
  sums and cancels the divisor.

  The claims: each program runs to the end without a fault and leaves its arguments unchanged (for the kernel, at the
  word level and idealized, by the two sweeps' pipelines run block by block; for the reference by its straight-line
  run); the idealized kernel is the kernel's text read at the ideal instance, no rewrite applied; and the two idealized
  programs end with equal results.
-/
import proofs.«163727_j40578851012881_2_alg».proof.Defs
import proofs.«163727_j40578851012881_2_alg».proof.Proof.Gen.Kernel
import proofs.«163727_j40578851012881_2_alg».proof.Proof.Gen.KernelIdeal
import proofs.«163727_j40578851012881_2_alg».proof.Proof.Gen.ReferenceIdeal
import proofs.«163727_j40578851012881_2_alg».proof.Proof.Gen.Pre_finite_inputs
import proofs.«163727_j40578851012881_2_alg».proof.Proof.Gen.ReferenceIdeal.Run
import proofs.«163727_j40578851012881_2_alg».proof.Proof.Gen.ReferenceIdeal.Read
import proofs.«163727_j40578851012881_2_alg».proof.Proof.RunI
import proofs.«163727_j40578851012881_2_alg».proof.Proof.RunB
import proofs.«163727_j40578851012881_2_alg».proof.Proof.Bridge
import proofs.«163727_j40578851012881_2_alg».proof.Proof.RefSide
import proofs.«163727_j40578851012881_2_alg».proof.Proof.Finite
import Idealize.ShloMosaic.Adequacy
import Idealize.ShloMosaic.Init

noncomputable section

namespace Cert.Proof

open Idealize.ShloMosaic Idealize.ShloMosaic.ValueIdx Idealize.SL.Sem

/-- The word-level kernel runs and keeps its arguments: its run, the result dropped. -/
theorem frame_kernel : Cert.frame_Kernel := fun m ρ _ =>
  (θ_run (Cert.Kernel.defs (F := Bits)) _ _).mono (fun _ h c => (h c).2) (Cert.Kernel.Hand.run_main (F := Bits) m ρ)

/-- The idealized kernel likewise. -/
theorem frame_kernelIdeal : Cert.frame_KernelIdeal := fun m ρ _ =>
  (θ_run (Cert.KernelIdeal.defs (F := Ideal)) _ _).mono (fun _ h c => (h c).2) (Cert.KernelIdeal.Hand.run_main (F := Ideal) m ρ)

/-- The reference likewise. -/
theorem frame_reference : Cert.frame_ReferenceIdeal := fun m ρ _ =>
  (θ_run (Cert.ReferenceIdeal.defs (F := Ideal)) _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the same result: entry by entry the
    kernel's is the one-pass form and the reference's the two-pass form of one normalisation of finite inputs. -/
theorem algebraic : Cert.algebraic_KernelIdeal_ReferenceIdeal := by
  intro m ρ m' ρ' hpre hagree
  refine ⟨fun c => Cert.KernelIdeal.Hand.W5 m ρ c (Proc.devRef .tc Cert.KernelIdeal.main_v45),
    Cert.KernelIdeal.Hand.run_main (F := Ideal) m ρ, ?_⟩
  refine (θ_run (Cert.ReferenceIdeal.defs (F := Ideal)) _ _).mono (fun _ h c => ⟨(h c).1.trans ?_, (h c).2⟩)
    (Cert.ReferenceIdeal.Value.run (F := Ideal) m' ρ')
  obtain ⟨hf0, hf2, hf3⟩ := Cert.GraphNorm.finite_of_pre _ _ _ _ (hpre c)
  rw [Cert.ReferenceIdeal.Read.val_main_v47_eq, (hagree c).1, (hagree c).2.1, (hagree c).2.2.1, (hagree c).2.2.2]
  refine funext fun (i : Cert.ReferenceIdeal.S262144x256.Idx) => ?_
  obtain ⟨r, k, rfl⟩ : ∃ (r : Fin 262144) (k : Fin 256), i = ix2 r k := ⟨i 0, i 1, eq_ix2 i⟩
  rw [Cert.ReferenceIdeal.RefValue.result_eq]
  exact (Cert.KernelIdeal.Hand.out_entry m ρ c _ rfl _ rfl _ rfl hf0 hf2 hf3 r k).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
